-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000x1 : Shape := ⟨2, ![2000000, 1]⟩
abbrev S2000000x4 : Shape := ⟨2, ![2000000, 4]⟩
abbrev S3x3 : Shape := ⟨2, ![3, 3]⟩
abbrev S3 : Shape := ⟨1, ![3]⟩
abbrev S_ : Shape := ⟨0, ![]⟩
abbrev S1x3 : Shape := ⟨2, ![1, 3]⟩
abbrev S2000000 : Shape := ⟨1, ![2000000]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S2000000x1 : S_.BroadcastsInDim S2000000x1 (![] : Fin 0 → Fin S2000000x1.rank)
  reducesTo_S2000000x1_S_d0_1 : S2000000x1.ReducesTo [0, 1] S_
  bcast_S_S2000000x4 : S_.BroadcastsInDim S2000000x4 (![] : Fin 0 → Fin S2000000x4.rank)
  reducesTo_S2000000x4_S_d0_1 : S2000000x4.ReducesTo [0, 1] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  transposes_S3x3_S3x3_1_0 : S3x3.Transposes [1, 0] S3x3
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x3_S2000000x1_0_2 : S2000000x3.Slices ![0, 2] S2000000x1
  shapeCasts_S2000000x1_S2000000 : S2000000x1.ShapeCasts S2000000
  bcast_S_S2000000 : S_.BroadcastsInDim S2000000 (![] : Fin 0 → Fin S2000000.rank)
  reducesTo_S2000000_S_d0 : S2000000.ReducesTo [0] S_
  dot_S2000000x3_S3x3_S2000000x3_1_0_0_1_n_n_wf : DotDims.WF S2000000x3 S3x3 S2000000x3 [1] [0] [0] [1] [] []

variable [Facts]

def dot_S2000000x3_S3x3_S2000000x3_1_0_0_1_n_n : DotDims S2000000x3 S3x3 S2000000x3 where
  lhsContracting := [1]
  rhsContracting := [0]
  lhsNonContracting := [0]
  rhsNonContracting := [1]
  lhsBatch := []
  rhsBatch := []
  wf := dot_S2000000x3_S3x3_S2000000x3_1_0_0_1_n_n_wf
def fn_part2 {F : FTy → Type} [FloatOps F] (main_arg0 : FVec F S2000000x3 .f32) (main_arg5 : FVec F S3x3 .f32) (main_arg6 : FVec F S3 .f32) (main_v33 : IVec S_ 1) : IVec S_ 1 :=
  let main_v34 : FVec F S3x3 .f32 := (transpose S3x3 [1, 0] · transposes_S3x3_S3x3_1_0) main_arg5
  let main_v35 : FVec F S2000000x3 .f32 := (fun l r => Host.dotGeneral dot_S2000000x3_S3x3_S2000000x3_1_0_0_1_n_n none l r) main_arg0 main_v34
  let main_v36 : FVec F S1x3 .f32 := broadcastInDim S1x3 ![1] bcast_S3_S1x3_1 main_arg6
  let main_v37 : FVec F S2000000x3 .f32 := broadcastInDim S2000000x3 ![0, 1] bcast_S1x3_S2000000x3_0_1 main_v36
  let main_v38 : FVec F S2000000x3 .f32 := addf main_v35 main_v37
  let main_v39 : FVec F S2000000x1 .f32 := (extractStridedSlice S2000000x1 ![0, 2] · slices_S2000000x3_S2000000x1_0_2) main_v38
  let main_v40 : FVec F S2000000 .f32 := shapeCast S2000000 main_v39 shapeCasts_S2000000x1_S2000000
  let main_cst_12 : FVec F S_ .f32 := constant S_ .f32 0x00000000#32
  let main_v41 : FVec F S2000000 .f32 := broadcastInDim S2000000 ![] bcast_S_S2000000 main_cst_12
  let main_v42 : IVec S2000000 1 := cmpf .une main_v40 main_v41
  let main_c_13 : IVec S_ 1 := constantI S_ 1 1#1
  let main_v43 : IVec S_ 1 := (fun x v => Host.reduce IntOp.andi x v reducesTo_S2000000_S_d0 h_S_) main_v42 main_c_13
  let main_v44 : IVec S_ 1 := andi main_v33 main_v43
  main_v44

def fn_part1 {F : FTy → Type} [FloatOps F] (main_arg0 : FVec F S2000000x3 .f32) (main_arg4 : FVec F S2000000x3 .f32) (main_arg5 : FVec F S3x3 .f32) (main_arg6 : FVec F S3 .f32) (main_v13 : IVec S_ 1) (main_v16 : IVec S2000000x4 1) : IVec S_ 1 :=
  let main_c_5 : IVec S_ 1 := constantI S_ 1 1#1
  let main_v17 : IVec S_ 1 := (fun x v => Host.reduce IntOp.andi x v reducesTo_S2000000x4_S_d0_1 h_S_) main_v16 main_c_5
  let main_v18 : IVec S_ 1 := andi main_v13 main_v17
  let main_v19 : FVec F S2000000x3 .f32 := Host.absf main_arg4
  let main_cst_6 : FVec F S_ .f32 := constant S_ .f32 0x7F800000#32
  let main_v20 : FVec F S2000000x3 .f32 := broadcastInDim S2000000x3 ![] bcast_S_S2000000x3 main_cst_6
  let main_v21 : IVec S2000000x3 1 := cmpf .olt main_v19 main_v20
  let main_c_7 : IVec S_ 1 := constantI S_ 1 1#1
  let main_v22 : IVec S_ 1 := (fun x v => Host.reduce IntOp.andi x v reducesTo_S2000000x3_S_d0_1 h_S_) main_v21 main_c_7
  let main_v23 : IVec S_ 1 := andi main_v18 main_v22
  let main_v24 : FVec F S3x3 .f32 := Host.absf main_arg5
  let main_cst_8 : FVec F S_ .f32 := constant S_ .f32 0x7F800000#32
  let main_v25 : FVec F S3x3 .f32 := broadcastInDim S3x3 ![] bcast_S_S3x3 main_cst_8
  let main_v26 : IVec S3x3 1 := cmpf .olt main_v24 main_v25
  let main_c_9 : IVec S_ 1 := constantI S_ 1 1#1
  let main_v27 : IVec S_ 1 := (fun x v => Host.reduce IntOp.andi x v reducesTo_S3x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg0 main_arg5 main_arg6 main_v33

def fn {F : FTy → Type} [FloatOps F] (main_arg0 : FVec F S2000000x3 .f32) (main_arg1 : FVec F S2000000x3 .f32) (main_arg2 : FVec F S2000000x1 .f32) (main_arg3 : FVec F S2000000x4 .f32) (main_arg4 : FVec F S2000000x3 .f32) (main_arg5 : FVec F S3x3 .f32) (main_arg6 : FVec F S3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x1 .f32 := Host.absf main_arg2
  let main_cst_2 : FVec F S_ .f32 := constant S_ .f32 0x7F800000#32
  let main_v10 : FVec F S2000000x1 .f32 := broadcastInDim S2000000x1 ![] bcast_S_S2000000x1 main_cst_2
  let main_v11 : IVec S2000000x1 1 := cmpf .olt main_v9 main_v10
  let main_c_3 : IVec S_ 1 := constantI S_ 1 1#1
  let main_v12 : IVec S_ 1 := (fun x v => Host.reduce IntOp.andi x v reducesTo_S2000000x1_S_d0_1 h_S_) main_v11 main_c_3
  let main_v13 : IVec S_ 1 := andi main_v8 main_v12
  let main_v14 : FVec F S2000000x4 .f32 := Host.absf main_arg3
  let main_cst_4 : FVec F S_ .f32 := constant S_ .f32 0x7F800000#32
  let main_v15 : FVec F S2000000x4 .f32 := broadcastInDim S2000000x4 ![] bcast_S_S2000000x4 main_cst_4
  let main_v16 : IVec S2000000x4 1 := cmpf .olt main_v14 main_v15
  fn_part1 (F := F) main_arg0 main_arg4 main_arg5 main_arg6 main_v13 main_v16
-- ==== Kernel.lean ====
abbrev S2000000x3 : Shape := ⟨2, ![2000000, 3]⟩
abbrev S2000000x1 : Shape := ⟨2, ![2000000, 1]⟩
abbrev S2000000x4 : Shape := ⟨2, ![2000000, 4]⟩
abbrev S3x3 : Shape := ⟨2, ![3, 3]⟩
abbrev S3 : Shape := ⟨1, ![3]⟩
abbrev S2000000x2x2 : Shape := ⟨3, ![2000000, 2, 2]⟩
abbrev S2000x3 : Shape := ⟨2, ![2000, 3]⟩
abbrev S2000x1 : Shape := ⟨2, ![2000, 1]⟩
abbrev S2000x4 : Shape := ⟨2, ![2000, 4]⟩
abbrev S2000x2x2 : Shape := ⟨3, ![2000, 2, 2]⟩
abbrev S1x1 : Shape := ⟨2, ![1, 1]⟩
abbrev S1 : Shape := ⟨1, ![1]⟩
abbrev S2000 : Shape := ⟨1, ![2000]⟩
abbrev S2000x2 : Shape := ⟨2, ![2000, 2]⟩
abbrev S2000x1x2 : Shape := ⟨3, ![2000, 1, 2]⟩

abbrev nBuf : Space → Nat
  | .hbm => 11
  | .vmem => 20
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x1, .f32⟩
  | .hbm, ⟨3, _⟩ => ⟨S2000000x4, .f32⟩
  | .hbm, ⟨4, _⟩ => ⟨S2000000x3, .f32⟩
  | .hbm, ⟨5, _⟩ => ⟨S3x3, .f32⟩
  | .hbm, ⟨6, _⟩ => ⟨S3, .f32⟩
  | .hbm, ⟨7, _⟩ => ⟨S2000000x3, .f32⟩
  | .hbm, ⟨8, _⟩ => ⟨S2000000x2x2, .f32⟩
  | .hbm, ⟨9, _⟩ => ⟨S2000000x3, .f32⟩
  | .hbm, ⟨10, _⟩ => ⟨S2000000x1, .f32⟩
  | .local _ .vmem, ⟨0, _⟩ => ⟨S3x3, .f32⟩
  | .local _ .vmem, ⟨1, _⟩ => ⟨S3, .f32⟩
  | .local _ .vmem, ⟨2, _⟩ => ⟨S2000x3, .f32⟩
  | .local _ .vmem, ⟨3, _⟩ => ⟨S2000x3, .f32⟩
  | .local _ .vmem, ⟨4, _⟩ => ⟨S2000x3, .f32⟩
  | .local _ .vmem, ⟨5, _⟩ => ⟨S2000x3, .f32⟩
  | .local _ .vmem, ⟨6, _⟩ => ⟨S2000x1, .f32⟩
  | .local _ .vmem, ⟨7, _⟩ => ⟨S2000x1, .f32⟩
  | .local _ .vmem, ⟨8, _⟩ => ⟨S2000x4, .f32⟩
  | .local _ .vmem, ⟨9, _⟩ => ⟨S2000x4, .f32⟩
  | .local _ .vmem, ⟨10, _⟩ => ⟨S2000x3, .f32⟩
  | .local _ .vmem, ⟨11, _⟩ => ⟨S2000x3, .f32⟩
  | .local _ .vmem, ⟨12, _⟩ => ⟨S2000x3, .f32⟩
  | .local _ .vmem, ⟨13, _⟩ => ⟨S2000x3, .f32⟩
  | .local _ .vmem, ⟨14, _⟩ => ⟨S2000x2x2, .f32⟩
  | .local _ .vmem, ⟨15, _⟩ => ⟨S2000x2x2, .f32⟩
  | .local _ .vmem, ⟨16, _⟩ => ⟨S2000x3, .f32⟩
  | .local _ .vmem, ⟨17, _⟩ => ⟨S2000x3, .f32⟩
  | .local _ .vmem, ⟨18, _⟩ => ⟨S2000x1, .f32⟩
  | .local _ .vmem, ⟨19, _⟩ => ⟨S2000x1, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x2x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S3x3_S3x3_0_0 : ∀ a, (![0, 0] : Fin 2 → Nat) a + S3x3.size a ≤ S3x3.size a
  h_S3x3 : 0 < S3x3.numel
  inb_S3_S3_0 : ∀ a, (![0] : Fin 1 → Nat) a + S3.size a ≤ S3.size a
  h_S3 : 0 < S3.numel
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  inb_S2000x3_S2000x3_0_0 : ∀ a, (![0, 0] : Fin 2 → Nat) a + S2000x3.size a ≤ S2000x3.size a
  h_S2000x3 : 0 < S2000x3.numel
  slices_S2000x3_o0_0_S2000x1 : S2000x3.Slices ![0, 0] S2000x1
  shapeCasts_S2000x1_S2000 : S2000x1.ShapeCasts S2000
  slices_S2000x3_o0_1_S2000x1 : S2000x3.Slices ![0, 1] S2000x1
  slices_S2000x3_o0_2_S2000x1 : S2000x3.Slices ![0, 2] S2000x1
  shapeCasts_S2000_S2000x1 : S2000.ShapeCasts S2000x1
  concatenates_S2000x1_S2000x1_S2000x1_S2000x3_d1 : Shape.Concatenates [S2000x1, S2000x1, S2000x1] S2000x3 1
  inb_S2000x4_S2000x4_0_0 : ∀ a, (![0, 0] : Fin 2 → Nat) a + S2000x4.size a ≤ S2000x4.size a
  h_S2000x4 : 0 < S2000x4.numel
  slices_S2000x4_o0_0_S2000x1 : S2000x4.Slices ![0, 0] S2000x1
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  concatenates_S2000x1_S2000x1_S2000x2_d1 : Shape.Concatenates [S2000x1, S2000x1] S2000x2 1
  shapeCasts_S2000x2_S2000x1x2 : S2000x2.ShapeCasts S2000x1x2
  concatenates_S2000x1x2_S2000x1x2_S2000x2x2_d1 : Shape.Concatenates [S2000x1x2, S2000x1x2] S2000x2x2 1
  inb_S2000x2x2_S2000x2x2_0_0_0 : ∀ a, (![0, 0, 0] : Fin 3 → Nat) a + S2000x2x2.size a ≤ S2000x2x2.size a
  h_S2000x2x2 : 0 < S2000x2x2.numel
  inb_S2000x1_S2000x1_0_0 : ∀ a, (![0, 0] : Fin 2 → Nat) a + S2000x1.size a ≤ S2000x1.size a
  h_S2000x1 : 0 < S2000x1.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x3.size a ≤ S3x3.size a
  hwx0_0 : ∀ i : grid0.Coords, EltTy.bits .f32 = 32 ∨ (Rect.block (s := S3x3) S3x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3.size a ≤ S3.size a
  hwx0_1 : ∀ i : grid0.Coords, EltTy.bits .f32 = 32 ∨ (Rect.block (s := S3) S3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S2000000x3.size a
  hwx0_2 : ∀ i : grid0.Coords, EltTy.bits .f32 = 32 ∨ (Rect.block (s := S2000000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S2000000x3.size a
  hwx0_3 : ∀ i : grid0.Coords, EltTy.bits .f32 = 32 ∨ (Rect.block (s := S2000000x3) S2000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S2000000x1.size a
  hwx0_4 : ∀ i : grid0.Coords, EltTy.bits .f32 = 32 ∨ (Rect.block (s := S2000000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x4.size a ≤ S2000000x4.size a
  hwx0_5 : ∀ i : grid0.Coords, EltTy.bits .f32 = 32 ∨ (Rect.block (s := S2000000x4) S2000x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x3.size a ≤ S2000000x3.size a
  hwx0_6 : ∀ i : grid0.Coords, EltTy.bits .f32 = 32 ∨ (Rect.block (s := S2000000x3) S2000x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x3.size a ≤ S2000000x3.size a
  hwx0_7 : ∀ i : grid0.Coords, EltTy.bits .f32 = 32 ∨ (Rect.block (s := S2000000x3) S2000x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x2x2.size a ≤ S2000000x2x2.size a
  hwx0_8 : ∀ i : grid0.Coords, EltTy.bits .f32 = 32 ∨ (Rect.block (s := S2000000x2x2) S2000x2x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x3.size a ≤ S2000000x3.size a
  hwx0_9 : ∀ i : grid0.Coords, EltTy.bits .f32 = 32 ∨ (Rect.block (s := S2000000x3) S2000x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S2000000x1.size a
  hwx0_10 : ∀ i : grid0.Coords, EltTy.bits .f32 = 32 ∨ (Rect.block (s := S2000000x1) S2000x1.size (cc0_transform_10 i) (hinb0_10 i)).WholeWords (EltTy.packing .f32)

variable [Facts₀]

abbrev win0_0 : Pipeline.Window sig grid0 :=
  Pipeline.Window.ofSpec (Memref.whole main_arg5) S3x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S2000x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S2000x3.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S2000x3.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S2000x2x2.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S2000x3.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_3) S2000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000x1 : Shape := ⟨2, ![2000000, 1]⟩
abbrev S2000000x4 : Shape := ⟨2, ![2000000, 4]⟩
abbrev S3x3 : Shape := ⟨2, ![3, 3]⟩
abbrev S3 : Shape := ⟨1, ![3]⟩
abbrev S1x3 : Shape := ⟨2, ![1, 3]⟩
abbrev S2000000 : Shape := ⟨1, ![2000000]⟩
abbrev S_ : Shape := ⟨0, ![]⟩
abbrev S2000000x9 : Shape := ⟨2, ![2000000, 9]⟩
abbrev S2000000x3x3 : Shape := ⟨3, ![2000000, 3, 3]⟩
abbrev S2000000x1x3 : Shape := ⟨3, ![2000000, 1, 3]⟩
abbrev S2000000x2x2 : Shape := ⟨3, ![2000000, 2, 2]⟩

abbrev nBuf : Space → Nat
  | .hbm => 173
  | .vmem => 0
  | .smem => 0
  | _ => 0

abbrev hbmTy0_0 (i : Nat) : BufTy := match i % 128 with
  | 0 => ⟨S2000000x3, .f32⟩
  | 1 => ⟨S2000000x3, .f32⟩
  | 2 => ⟨S2000000x1, .f32⟩
  | 3 => ⟨S2000000x4, .f32⟩
  | 4 => ⟨S2000000x3, .f32⟩
  | 5 => ⟨S3x3, .f32⟩
  | 6 => ⟨S3, .f32⟩
  | 7 => ⟨S3x3, .f32⟩
  | 8 => ⟨S2000000x3, .f32⟩
  | 9 => ⟨S1x3, .f32⟩
  | 10 => ⟨S2000000x3, .f32⟩
  | 11 => ⟨S2000000x3, .f32⟩
  | 12 => ⟨S2000000x1, .f32⟩
  | 13 => ⟨S2000000, .f32⟩
  | 14 => ⟨S2000000x1, .f32⟩
  | 15 => ⟨S2000000, .f32⟩
  | 16 => ⟨S2000000x1, .f32⟩
  | 17 => ⟨S2000000, .f32⟩
  | 18 => ⟨S2000000x3, .f32⟩
  | 19 => ⟨S_, .f32⟩
  | 20 => ⟨S2000000, .f32⟩
  | 21 => ⟨S2000000, .f32⟩
  | 22 => ⟨S2000000, .f32⟩
  | 23 => ⟨S2000000, .f32⟩
  | 24 => ⟨S2000000x1, .f32⟩
  | 25 => ⟨S2000000x1, .f32⟩
  | 26 => ⟨S2000000x1, .f32⟩
  | 27 => ⟨S2000000x3, .f32⟩
  | 28 => ⟨S_, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S2000000, .f32⟩
  | 40 => ⟨S2000000, .f32⟩
  | 41 => ⟨S2000000, .f32⟩
  | 42 => ⟨S2000000, .f32⟩
  | 43 => ⟨S2000000, .f32⟩
  | 44 => ⟨S2000000, .f32⟩
  | 45 => ⟨S2000000x1, .f32⟩
  | 46 => ⟨S2000000x1, .f32⟩
  | 47 => ⟨S2000000x1, .f32⟩
  | 48 => ⟨S2000000x1, .f32⟩
  | 49 => ⟨S2000000x1, .f32⟩
  | 50 => ⟨S2000000x1, .f32⟩
  | 51 => ⟨S2000000x1, .f32⟩
  | 52 => ⟨S2000000x1, .f32⟩
  | 53 => ⟨S2000000x1, .f32⟩
  | 54 => ⟨S2000000x9, .f32⟩
  | 55 => ⟨S2000000x3x3, .f32⟩
  | 56 => ⟨S2000000x4, .f32⟩
  | 57 => ⟨S_, .f32⟩
  | 58 => ⟨S2000000, .f32⟩
  | 59 => ⟨S2000000x1, .f32⟩
  | 60 => ⟨S2000000x1, .f32⟩
  | 61 => ⟨S2000000x4, .f32⟩
  | 62 => ⟨S2000000x4, .f32⟩
  | 63 => ⟨S2000000x1, .f32⟩
  | 64 => ⟨S2000000, .f32⟩
  | 65 => ⟨S2000000x1, .f32⟩
  | 66 => ⟨S2000000, .f32⟩
  | 67 => ⟨S2000000x1, .f32⟩
  | 68 => ⟨S2000000, .f32⟩
  | 69 => ⟨S2000000x1, .f32⟩
  | 70 => ⟨S2000000, .f32⟩
  | 71 => ⟨S2000000, .f32⟩
  | 72 => ⟨S2000000, .f32⟩
  | 73 => ⟨S2000000, .f32⟩
  | 74 => ⟨S_, .f32⟩
  | 75 => ⟨S2000000, .f32⟩
  | 76 => ⟨S2000000, .f32⟩
  | 77 => ⟨S_, .f32⟩
  | 78 => ⟨S2000000, .f32⟩
  | 79 => ⟨S2000000, .f32⟩
  | 80 => ⟨S2000000, .f32⟩
  | 81 => ⟨S2000000, .f32⟩
  | 82 => ⟨S2000000, .f32⟩
  | 83 => ⟨S_, .f32⟩
  | 84 => ⟨S2000000, .f32⟩
  | 85 => ⟨S2000000, .f32⟩
  | 86 => ⟨S2000000, .f32⟩
  | 87 => ⟨S2000000, .f32⟩
  | 88 => ⟨S2000000, .f32⟩
  | 89 => ⟨S_, .f32⟩
  | 90 => ⟨S2000000, .f32⟩
  | 91 => ⟨S2000000, .f32⟩
  | 92 => ⟨S2000000, .f32⟩
  | 93 => ⟨S2000000, .f32⟩
  | 94 => ⟨S2000000, .f32⟩
  | 95 => ⟨S_, .f32⟩
  | 96 => ⟨S2000000, .f32⟩
  | 97 => ⟨S2000000, .f32⟩
  | 98 => ⟨S2000000, .f32⟩
  | 99 => ⟨S2000000, .f32⟩
  | 100 => ⟨S2000000, .f32⟩
  | 101 => ⟨S_, .f32⟩
  | 102 => ⟨S2000000, .f32⟩
  | 103 => ⟨S2000000, .f32⟩
  | 104 => ⟨S_, .f32⟩
  | 105 => ⟨S2000000, .f32⟩
  | 106 => ⟨S2000000, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000, .f32⟩
  | 114 => ⟨S2000000, .f32⟩
  | 115 => ⟨S2000000, .f32⟩
  | 116 => ⟨S_, .f32⟩
  | 117 => ⟨S2000000, .f32⟩
  | 118 => ⟨S2000000, .f32⟩
  | 119 => ⟨S2000000, .f32⟩
  | 120 => ⟨S2000000, .f32⟩
  | 121 => ⟨S2000000, .f32⟩
  | 122 => ⟨S_, .f32⟩
  | 123 => ⟨S2000000, .f32⟩
  | 124 => ⟨S2000000, .f32⟩
  | 125 => ⟨S2000000, .f32⟩
  | 126 => ⟨S2000000, .f32⟩
  | 127 => ⟨S2000000, .f32⟩
  | _ => ⟨S2000000x3, .f32⟩

abbrev hbmTy0_1 (i : Nat) : BufTy := match i % 128 with
  | 0 => ⟨S_, .f32⟩
  | 1 => ⟨S2000000, .f32⟩
  | 2 => ⟨S2000000, .f32⟩
  | 3 => ⟨S_, .f32⟩
  | 4 => ⟨S2000000, .f32⟩
  | 5 => ⟨S2000000, .f32⟩
  | 6 => ⟨S2000000x1, .f32⟩
  | 7 => ⟨S2000000x1, .f32⟩
  | 8 => ⟨S2000000x1, .f32⟩
  | 9 => ⟨S2000000x1, .f32⟩
  | 10 => ⟨S2000000x1, .f32⟩
  | 11 => ⟨S2000000x1, .f32⟩
  | 12 => ⟨S2000000x1, .f32⟩
  | 13 => ⟨S2000000x1, .f32⟩
  | 14 => ⟨S2000000x1, .f32⟩
  | 15 => ⟨S2000000x9, .f32⟩
  | 16 => ⟨S2000000x3x3, .f32⟩
  | 17 => ⟨S2000000x3, .f32⟩
  | 18 => ⟨S_, .f32⟩
  | 19 => ⟨S2000000x3, .f32⟩
  | 20 => ⟨S2000000x3, .f32⟩
  | 21 => ⟨S2000000x1x3, .f32⟩
  | 22 => ⟨S2000000x3x3, .f32⟩
  | 23 => ⟨S2000000x3x3, .f32⟩
  | 24 => ⟨S2000000x3x3, .f32⟩
  | 25 => ⟨S2000000x3x3, .f32⟩
  | 26 => ⟨S2000000x3x3, .f32⟩
  | 27 => ⟨S2000000x3x3, .f32⟩
  | 28 => ⟨S2000000x2x2, .f32⟩
  | 29 => ⟨S2000000x3, .f32⟩
  | 30 => ⟨S2000000x3, .f32⟩
  | 31 => ⟨S_, .f32⟩
  | 32 => ⟨S2000000x3, .f32⟩
  | 33 => ⟨S2000000x3, .f32⟩
  | 34 => ⟨S_, .f32⟩
  | 35 => ⟨S2000000x3, .f32⟩
  | 36 => ⟨S2000000x3, .f32⟩
  | 37 => ⟨S2000000x1, .f32⟩
  | 38 => ⟨S2000000x1, .f32⟩
  | 39 => ⟨S_, .f32⟩
  | 40 => ⟨S2000000x1, .f32⟩
  | 41 => ⟨S2000000x1, .f32⟩
  | 42 => ⟨S_, .f32⟩
  | 43 => ⟨S2000000x1, .f32⟩
  | 44 => ⟨S2000000x1, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call1_v0 : Ref sig .tc := ⟨.hbm, 56, rfl⟩
abbrev main_call1_cst : Ref sig .tc := ⟨.hbm, 57, rfl⟩
abbrev main_call1_v1 : Ref sig .tc := ⟨.hbm, 58, rfl⟩
abbrev main_call1_v2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_2 : Ref sig .tc := ⟨.hbm, 74, rfl⟩
abbrev main_v57 : Ref sig .tc := ⟨.hbm, 75, rfl⟩
abbrev main_v58 : Ref sig .tc := ⟨.hbm, 76, rfl⟩
abbrev main_cst_3 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_4 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_5 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_6 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_7 : Ref sig .tc := ⟨.hbm, 101, rfl⟩
abbrev main_v79 : Ref sig .tc := ⟨.hbm, 102, rfl⟩
abbrev main_v80 : Ref sig .tc := ⟨.hbm, 103, rfl⟩
abbrev main_cst_8 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_9 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_10 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_11 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_12 : Ref sig .tc := ⟨.hbm, 128, rfl⟩
abbrev main_v101 : Ref sig .tc := ⟨.hbm, 129, rfl⟩
abbrev main_v102 : Ref sig .tc := ⟨.hbm, 130, rfl⟩
abbrev main_cst_13 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_14 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_15 : Ref sig .tc := ⟨.hbm, 159, rfl⟩
abbrev main_v129 : Ref sig .tc := ⟨.hbm, 160, rfl⟩
abbrev main_v130 : Ref sig .tc := ⟨.hbm, 161, rfl⟩
abbrev main_cst_16 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_17 : Ref sig .tc := ⟨.hbm, 167, rfl⟩
abbrev main_v135 : Ref sig .tc := ⟨.hbm, 168, rfl⟩
abbrev main_v136 : Ref sig .tc := ⟨.hbm, 169, rfl⟩
abbrev main_cst_18 : Ref sig .tc := ⟨.hbm, 170, rfl⟩
abbrev main_v137 : Ref sig .tc := ⟨.hbm, 171, rfl⟩
abbrev main_v138 : Ref sig .tc := ⟨.hbm, 172, rfl⟩

abbrev nD : Nat := 1
abbrev τ : Topo := Topo.v7x

variable {F : FTy → Type} [FloatOps F]

class Facts₀ : Prop where
  transposes_S3x3_S3x3_1_0 : S3x3.Transposes [1, 0] S3x3
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  reducesTo_S2000000x3_S2000000_d1 : S2000000x3.ReducesTo [1] S2000000
  h_S_ : 0 < S_.numel
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S_S2000000 : S_.BroadcastsInDim S2000000 (![] : Fin 0 → Fin S2000000.rank)
  concatenates_S2000000x1_S2000000x1_S2000000x1_S2000000x1_S2000000x1_S2000000x1_S2000000x1_S2000000x1_S2000000x1_S2000000x9_d1 : Shape.Concatenates [S2000000x1, S2000000x1, S2000000x1, S2000000x1, S2000000x1, S2000000x1, S2000000x1, S2000000x1, S2000000x1] S2000000x9 1
  shapeCasts_S2000000x9_S2000000x3x3 : S2000000x9.ShapeCasts S2000000x3x3
  reducesTo_S2000000x4_S2000000_d1 : S2000000x4.ReducesTo [1] S2000000
  bcast_S2000000x1_S2000000x4_0_1 : S2000000x1.BroadcastsInDim S2000000x4 (![0, 1] : Fin 2 → Fin S2000000x4.rank)
  slices_S2000000x4_S2000000x1_0_0 : S2000000x4.Slices ![0, 0] S2000000x1
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  bcast_S_S2000000x3 : S_.BroadcastsInDim S2000000x3 (![] : Fin 0 → Fin S2000000x3.rank)
  bcast_S2000000x3_S2000000x1x3_0_2 : S2000000x3.BroadcastsInDim S2000000x1x3 (![0, 2] : Fin 2 → Fin S2000000x1x3.rank)
  bcast_S2000000x1x3_S2000000x3x3_0_1_2 : S2000000x1x3.BroadcastsInDim S2000000x3x3 (![0, 1, 2] : Fin 3 → Fin S2000000x3x3.rank)
  slices_S2000000x3x3_S2000000x2x2_0_0_0 : S2000000x3x3.Slices ![0, 0, 0] S2000000x2x2
  bcast_S_S2000000x1 : S_.BroadcastsInDim S2000000x1 (![] : Fin 0 → Fin S2000000x1.rank)
  dot_S2000000x3_S3x3_S2000000x3_1_0_0_1_n_n_wf : DotDims.WF S2000000x3 S3x3 S2000000x3 [1] [0] [0] [1] [] []
  dot_S2000000x3x3_S2000000x3x3_S2000000x3x3_2_2_1_1_0_0_wf : DotDims.WF S2000000x3x3 S2000000x3x3 S2000000x3x3 [2] [2] [1] [1] [0] [0]
  dot_S2000000x3x3_S3x3_S2000000x3x3_2_0_01_1_n_n_wf : DotDims.WF S2000000x3x3 S3x3 S2000000x3x3 [2] [0] [0, 1] [1] [] []
  dot_S2000000x3x3_S2000000x3x3_S2000000x3x3_1_2_2_1_0_0_wf : DotDims.WF S2000000x3x3 S2000000x3x3 S2000000x3x3 [1] [2] [2] [1] [0] [0]

variable [Facts₀]

def dot_S2000000x3_S3x3_S2000000x3_1_0_0_1_n_n : DotDims S2000000x3 S3x3 S2000000x3 where
  lhsContracting := [1]
  rhsContracting := [0]
  lhsNonContracting := [0]
  rhsNonContracting := [1]
  lhsBatch := []
  rhsBatch := []
  wf := dot_S2000000x3_S3x3_S2000000x3_1_0_0_1_n_n_wf
def dot_S2000000x3x3_S2000000x3x3_S2000000x3x3_2_2_1_1_0_0 : DotDims S2000000x3x3 S2000000x3x3 S2000000x3x3 where
  lhsContracting := [2]
  rhsContracting := [2]
  lhsNonContracting := [1]
  rhsNonContracting := [1]
  lhsBatch := [0]
  rhsBatch := [0]
  wf := dot_S2000000x3x3_S2000000x3x3_S2000000x3x3_2_2_1_1_0_0_wf
def dot_S2000000x3x3_S3x3_S2000000x3x3_2_0_01_1_n_n : DotDims S2000000x3x3 S3x3 S2000000x3x3 where
  lhsContracting := [2]
  rhsContracting := [0]
  lhsNonContracting := [0, 1]
  rhsNonContracting := [1]
  lhsBatch := []
  rhsBatch := []
  wf := dot_S2000000x3x3_S3x3_S2000000x3x3_2_0_01_1_n_n_wf
def dot_S2000000x3x3_S2000000x3x3_S2000000x3x3_1_2_2_1_0_0 : DotDims S2000000x3x3 S2000000x3x3 S2000000x3x3 where
  lhsContracting := [1]
  rhsContracting := [2]
  lhsNonContracting := [2]
  rhsNonContracting := [1]
  lhsBatch := [0]
  rhsBatch := [0]
  wf := dot_S2000000x3x3_S2000000x3x3_S2000000x3x3_1_2_2_1_0_0_wf

class Facts : Prop extends Facts₀ where

variable [Facts]
-- ==== Proof.Spec.lean ====
/-
  What the two programs compute for one Gaussian, as functions of that Gaussian's own row of each input
  and of the shared camera rotation and translation, over the extended reals.

  A Gaussian has a world position `p`, a quaternion `q`, three scales `s`, a colour and an opacity. With
  camera rotation `rot` and translation `tr`:
  * its camera coordinates are `v i = (Σ k, p k · rot i k) + tr i`;
  * its image position is `(v 0 / v 2, v 1 / v 2, |v|)`;
  * the projection's Jacobian at `v` is `jac v`, with first two rows `(1/z, 0, -x/z²)` and `(0, 1/z, -y/z²)`;
  * its orientation is the rotation matrix of the normalised quaternion `q / |q|`, its 3-D covariance
    `(R S)(R S)ᵀ` with `S = diag(|s| + ε)`;
  * the image-plane covariance is the top-left 2×2 block of `(J W) C (J W)ᵀ`, `W = rot`, contracted in the order
    `Σ k, (Σ j, C j k · (J W) i j) · (J W) l k`;
  * colour and opacity go through the logistic function.
  Sums are over `Fin 3` or `Fin 4` and are kept as sums; no law of arithmetic is used in this file.
-/
import Idealize.ShloMosaic.PureOps.Ideal
import Idealize.ShloMosaic.Lib.ValueIdx

noncomputable section

namespace Cert.Splat

open Idealize.ShloMosaic Idealize.ShloMosaic.ValueIdx

/-- The float literals both programs carry, as the extended reals their words denote. -/
abbrev one32 : EReal := Ideal.ofBits .f32 0x3F800000#32
abbrev two32 : EReal := Ideal.ofBits .f32 0x40000000#32
abbrev eps32 : EReal := Ideal.ofBits .f32 0x38D1B717#32

/-- The word `0x3F800000` denotes 1. -/
theorem one32_eq : one32 = 1 := by
  unfold one32; simp [Ideal.ofBits, Ideal.ieee, -EReal.coe_mul]; norm_num

/-! ## One Gaussian -/

/-- Camera coordinate `i` of a point `p`: row `i` of the rotation against `p`, plus the translation. -/
def cam (p : Fin 3 → EReal) (rot : Fin 3 → Fin 3 → EReal) (tr : Fin 3 → EReal) (i : Fin 3) : EReal :=
  (∑ k : Fin 3, p k * rot i k) + tr i

/-- Euclidean length of a 3-vector and of a 4-vector. -/
def norm3 (v : Fin 3 → EReal) : EReal := Ideal.sqrt (∑ k : Fin 3, v k * v k)
def norm4 (q : Fin 4 → EReal) : EReal := Ideal.sqrt (∑ k : Fin 4, q k * q k)

/-- Image position of the camera point `v`: perspective division of `x` and `y` by depth, and the distance. -/
def posImg (v : Fin 3 → EReal) : Fin 3 → EReal :=
  ![Ideal.div (v 0) (v 2), Ideal.div (v 1) (v 2), norm3 v]

/-- Jacobian of `v ↦ (x/z, y/z, |v|)` at `v`. -/
def jac (v : Fin 3 → EReal) : Fin 3 → Fin 3 → EReal :=
  ![![Ideal.div one32 (v 2), 0, Ideal.div (-(v 0)) (v 2 * v 2)],
    ![0, Ideal.div one32 (v 2), Ideal.div (-(v 1)) (v 2 * v 2)],
    ![Ideal.div (v 0) (norm3 v), Ideal.div (v 1) (norm3 v), Ideal.div (v 2) (norm3 v)]]

/-- Component `k` of the normalised quaternion. -/
def quatN (q : Fin 4 → EReal) (k : Fin 4) : EReal := Ideal.div (q k) (norm4 q)

/-- Rotation matrix of a unit quaternion `(w, x, y, z)`. -/
def rotOfQuat (w x y z : EReal) : Fin 3 → Fin 3 → EReal :=
  ![![one32 - two32 * (y * y + z * z), two32 * (x * y - w * z), two32 * (x * z + w * y)],
    ![two32 * (x * y + w * z), one32 - two32 * (x * x + z * z), two32 * (y * z - w * x)],
    ![two32 * (x * z - w * y), two32 * (y * z + w * x), one32 - two32 * (x * x + y * y)]]

/-- The orientation of a Gaussian with quaternion `q`. -/
def orient (q : Fin 4 → EReal) : Fin 3 → Fin 3 → EReal :=
  rotOfQuat (quatN q 0) (quatN q 1) (quatN q 2) (quatN q 3)

/-- Scale `m`, made positive: `|s m| + ε`. -/
def scl (s : Fin 3 → EReal) (m : Fin 3) : EReal := max (s m) (-(s m)) + eps32

/-- `R S`: column `m` of the orientation scaled by scale `m`. -/
def rs (q : Fin 4 → EReal) (s : Fin 3 → EReal) (j m : Fin 3) : EReal := orient q j m * scl s m

/-- The 3-D covariance `(R S)(R S)ᵀ`. -/
def cov3 (q : Fin 4 → EReal) (s : Fin 3 → EReal) (j k : Fin 3) : EReal := ∑ m : Fin 3, rs q s j m * rs q s k m

/-- `J W`: the Jacobian at `v` against the camera rotation. -/
def jw (v : Fin 3 → EReal) (rot : Fin 3 → Fin 3 → EReal) (i k : Fin 3) : EReal := ∑ j : Fin 3, jac v i j * rot j k

/-- `C (J W)ᵀ` entry `(k, i)`, as `Σ j, C j k · (J W) i j`. -/
def tk (v : Fin 3 → EReal) (rot : Fin 3 → Fin 3 → EReal) (q : Fin 4 → EReal) (s : Fin 3 → EReal) (k i : Fin 3) : EReal :=
  ∑ j : Fin 3, cov3 q s j k * jw v rot i j

/-- `(J W) C (J W)ᵀ` entry `(i, l)`. -/
def cov2 (v : Fin 3 → EReal) (rot : Fin 3 → Fin 3 → EReal) (q : Fin 4 → EReal) (s : Fin 3 → EReal) (i l : Fin 3) : EReal :=
  ∑ k : Fin 3, tk v rot q s k i * jw v rot l k

/-- The inclusion of the 2×2 block's coordinates into the 3×3 matrix's. -/
abbrev up (a : Fin 2) : Fin 3 := ⟨a.val, by omega⟩

/-! ## The arrays -/

abbrev A3 : Type := (⟨2, ![2000000, 3]⟩ : Shape).Idx → EReal
abbrev A4 : Type := (⟨2, ![2000000, 4]⟩ : Shape).Idx → EReal
abbrev A1 : Type := (⟨2, ![2000000, 1]⟩ : Shape).Idx → EReal
abbrev A22 : Type := (⟨3, ![2000000, 2, 2]⟩ : Shape).Idx → EReal
abbrev M33 : Type := (⟨2, ![3, 3]⟩ : Shape).Idx → EReal
abbrev V3 : Type := (⟨1, ![3]⟩ : Shape).Idx → EReal

/-- Row `n` of a `[2000000, 3]` or `[2000000, 4]` array, the 3×3 matrix and the 3-vector as families. -/
abbrev row3 (A : A3) (n : Fin 2000000) : Fin 3 → EReal := fun k => A (ix2 n k)
abbrev row4 (A : A4) (n : Fin 2000000) : Fin 4 → EReal := fun k => A (ix2 n k)
abbrev mat (R : M33) : Fin 3 → Fin 3 → EReal := fun a b => R (ix2 a b)
abbrev vec (T : V3) : Fin 3 → EReal := fun a => T (ix1 a)

/-- Camera coordinates of Gaussian `n`. -/
abbrev camOf (P : A3) (R : M33) (T : V3) (n : Fin 2000000) : Fin 3 → EReal := cam (row3 P n) (mat R) (vec T)

/-- The image positions, `[2000000, 3]`. -/
def G7 (P : A3) (R : M33) (T : V3) : A3 := fun i => posImg (camOf P R T (i 0)) (i 1)

/-- The image-plane covariances, `[2000000, 2, 2]`. -/
def G8 (P : A3) (Q : A4) (S : A3) (R : M33) (T : V3) : A22 :=
  fun i => cov2 (camOf P R T (i 0)) (mat R) (row4 Q (i 0)) (row3 S (i 0)) (up (i 1)) (up (i 2))

/-- Colours and opacities through the logistic function. -/
def G9 (C : A3) : A3 := fun i => Ideal.logistic (C i)
def G10 (O : A1) : A1 := fun i => Ideal.logistic (O i)

theorem G7_ix (P : A3) (R : M33) (T : V3) (n : Fin 2000000) (c : Fin 3) :
    G7 P R T (ix2 n c) = posImg (camOf P R T n) c := rfl

theorem G8_ix (P : A3) (Q : A4) (S : A3) (R : M33) (T : V3) (n : Fin 2000000) (a b : Fin 2) :
    G8 P Q S R T (ix3 n a b) = cov2 (camOf P R T n) (mat R) (row4 Q n) (row3 S n) (up a) (up b) := rfl

end Cert.Splat

end
-- ==== Proof.KernelForm.lean ====
/-
  The kernel computes each Gaussian with every small sum and matrix product written out term by term, with
  `x · (1/z)` where the specification has `x / z`, with `((0 − x) · (1/z)) · (1/z)` where it has `(−x) / (z · z)`, with
  the two vanishing Jacobian entries left out, and with one name for both off-diagonal entries of the symmetric 3-D
  covariance. This file writes that form down (`kcam`, `kpos`, `kjw`, `krs`, `kcov`) and proves it equal to the
  specification wherever the depth `z` is not zero.

  Laws used, all valid on the extended reals: sums over three or four terms written out; `1 · a = a`; `0 · a = 0`;
  `a + 0 = a`; `0 − a = −a`; for `z ≠ 0` division by `z` is multiplication by `z⁻¹` and `(z · z)⁻¹ = z⁻¹ · z⁻¹`;
  commutativity and associativity of addition and of multiplication. No distributive law is used, and no input
  needs to be finite.
-/
import proofs.«115822_j88313117540420_2_alg».proof.Proof.Spec
import Idealize.ShloMosaic.PureOps.Ideal.Laws

noncomputable section

namespace Cert.Splat

open Idealize.ShloMosaic

abbrev zero32 : EReal := Ideal.ofBits .f32 0x00000000#32

theorem zero32_eq : zero32 = 0 := Ideal.ofBits_zero_f32

/-! ## Camera coordinates and image position -/

def kcam (p : Fin 3 → EReal) (rot : Fin 3 → Fin 3 → EReal) (tr : Fin 3 → EReal) (i : Fin 3) : EReal :=
  ((p 0 * rot i 0 + p 1 * rot i 1) + p 2 * rot i 2) + tr i

theorem kcam_eq (p : Fin 3 → EReal) (rot : Fin 3 → Fin 3 → EReal) (tr : Fin 3 → EReal) : kcam p rot tr = cam p rot tr := by
  funext i; simp only [kcam, cam, Fin.sum_univ_three]

/-- The kernel's reciprocal of the depth. -/
def kinv (z : EReal) : EReal := Ideal.div one32 z

def kdist (v : Fin 3 → EReal) : EReal := Ideal.sqrt ((v 0 * v 0 + v 1 * v 1) + v 2 * v 2)

def kpos (v : Fin 3 → EReal) : Fin 3 → EReal := ![v 0 * kinv (v 2), v 1 * kinv (v 2), kdist v]

theorem kinv_eq {z : EReal} (hz : z ≠ 0) : kinv z = z⁻¹ := by
  unfold kinv Ideal.div; rw [if_neg hz, one32_eq, one_mul]

/-- Off zero, multiplying by the reciprocal is dividing. -/
theorem mul_kinv (x : EReal) {z : EReal} (hz : z ≠ 0) : x * kinv z = Ideal.div x z := by
  rw [kinv_eq hz]; unfold Ideal.div; rw [if_neg hz]

theorem kdist_eq (v : Fin 3 → EReal) : kdist v = norm3 v := by
  simp only [kdist, norm3, Fin.sum_univ_three]

theorem kpos_eq (v : Fin 3 → EReal) (hz : v 2 ≠ 0) : kpos v = posImg v := by
  unfold kpos posImg; rw [mul_kinv _ hz, mul_kinv _ hz, kdist_eq]

/-! ## The Jacobian against the camera rotation -/

/-- The kernel's `−u / z²`. -/
def kJ2 (u z : EReal) : EReal := ((zero32 - u) * kinv z) * kinv z

theorem kJ2_eq (u : EReal) {z : EReal} (hz : z ≠ 0) : kJ2 u z = Ideal.div (-u) (z * z) := by
  unfold kJ2
  rw [kinv_eq hz, zero32_eq, zero_sub]
  unfold Ideal.div
  rw [if_neg (mul_ne_zero hz hz), EReal.mul_inv, mul_assoc]

/-- Rows 0 and 1 of `J W`, without the entry of `J` that is zero. -/
def kjw (v : Fin 3 → EReal) (rot : Fin 3 → Fin 3 → EReal) (i : Fin 2) (k : Fin 3) : EReal :=
  kinv (v 2) * rot (up i) k + kJ2 (v (up i)) (v 2) * rot 2 k

theorem kjw_eq (v : Fin 3 → EReal) (rot : Fin 3 → Fin 3 → EReal) (hz : v 2 ≠ 0) (i : Fin 2) (k : Fin 3) :
    kjw v rot i k = jw v rot (up i) k := by
  unfold kjw jw
  rw [Fin.sum_univ_three, kJ2_eq _ hz]
  match i with
  | ⟨0, _⟩ =>
    show kinv (v 2) * rot 0 k + Ideal.div (-(v 0)) (v 2 * v 2) * rot 2 k
      = (Ideal.div one32 (v 2) * rot 0 k + 0 * rot 1 k) + Ideal.div (-(v 0)) (v 2 * v 2) * rot 2 k
    rw [zero_mul, add_zero]; rfl
  | ⟨1, _⟩ =>
    show kinv (v 2) * rot 1 k + Ideal.div (-(v 1)) (v 2 * v 2) * rot 2 k
      = (0 * rot 0 k + Ideal.div one32 (v 2) * rot 1 k) + Ideal.div (-(v 1)) (v 2 * v 2) * rot 2 k
    rw [zero_mul, zero_add]; rfl

/-! ## Orientation and scale -/

def kqlen (q : Fin 4 → EReal) : EReal := Ideal.sqrt (((q 0 * q 0 + q 1 * q 1) + q 2 * q 2) + q 3 * q 3)

def kqn (q : Fin 4 → EReal) (k : Fin 4) : EReal := Ideal.div (q k) (kqlen q)

theorem kqlen_eq (q : Fin 4 → EReal) : kqlen q = norm4 q := by
  simp only [kqlen, norm4, Fin.sum_univ_four]

theorem kqn_eq (q : Fin 4 → EReal) : kqn q = quatN q := by
  funext k; simp only [kqn, quatN, kqlen_eq]

def korient (q : Fin 4 → EReal) : Fin 3 → Fin 3 → EReal := rotOfQuat (kqn q 0) (kqn q 1) (kqn q 2) (kqn q 3)

theorem korient_eq (q : Fin 4 → EReal) : korient q = orient q := by
  unfold korient orient; rw [kqn_eq]

def krs (q : Fin 4 → EReal) (s : Fin 3 → EReal) (j m : Fin 3) : EReal := korient q j m * scl s m

theorem krs_eq (q : Fin 4 → EReal) (s : Fin 3 → EReal) : krs q s = rs q s := by
  funext j m; simp only [krs, rs, korient_eq]

/-! ## The covariance, written out -/

/-- Entry `(j, k)` of `R Rᵀ`, written out. -/
def kc (R : Fin 3 → Fin 3 → EReal) (j k : Fin 3) : EReal := (R j 0 * R k 0 + R j 1 * R k 1) + R j 2 * R k 2

/-- Row `A` against `R Rᵀ`, using the upper triangle's names for the lower triangle's entries. -/
def km (A : Fin 3 → EReal) (R : Fin 3 → Fin 3 → EReal) : Fin 3 → EReal :=
  ![(A 0 * kc R 0 0 + A 1 * kc R 0 1) + A 2 * kc R 0 2,
    (A 0 * kc R 0 1 + A 1 * kc R 1 1) + A 2 * kc R 1 2,
    (A 0 * kc R 0 2 + A 1 * kc R 1 2) + A 2 * kc R 2 2]

def kres (A B : Fin 3 → EReal) (R : Fin 3 → Fin 3 → EReal) : EReal :=
  (km A R 0 * B 0 + km A R 1 * B 1) + km A R 2 * B 2

theorem kc_eq (R : Fin 3 → Fin 3 → EReal) (j k : Fin 3) : kc R j k = ∑ m : Fin 3, R j m * R k m := by
  simp only [kc, Fin.sum_univ_three]

/-- `R Rᵀ` is symmetric, entry by entry, by commutativity of the product. -/
theorem kc_comm (R : Fin 3 → Fin 3 → EReal) (j k : Fin 3) : kc R j k = kc R k j := by
  unfold kc; rw [mul_comm (R j 0), mul_comm (R j 1), mul_comm (R j 2)]

theorem kres_eq (A B : Fin 3 → EReal) (R : Fin 3 → Fin 3 → EReal) :
    kres A B R = ∑ k : Fin 3, (∑ j : Fin 3, (∑ m : Fin 3, R j m * R k m) * A j) * B k := by
  simp only [← kc_eq]
  simp only [Fin.sum_univ_three]
  rw [kc_comm R 1 0, kc_comm R 2 0, kc_comm R 2 1]
  show (((A 0 * kc R 0 0 + A 1 * kc R 0 1) + A 2 * kc R 0 2) * B 0
      + ((A 0 * kc R 0 1 + A 1 * kc R 1 1) + A 2 * kc R 1 2) * B 1)
      + ((A 0 * kc R 0 2 + A 1 * kc R 1 2) + A 2 * kc R 2 2) * B 2 = _
  ac_rfl

/-- The kernel's 2×2 covariance. -/
def kcov (v : Fin 3 → EReal) (rot : Fin 3 → Fin 3 → EReal) (q : Fin 4 → EReal) (s : Fin 3 → EReal) (a b : Fin 2) : EReal :=
  kres (kjw v rot a) (kjw v rot b) (krs q s)

theorem kcov_eq (v : Fin 3 → EReal) (rot : Fin 3 → Fin 3 → EReal) (q : Fin 4 → EReal) (s : Fin 3 → EReal)
    (hz : v 2 ≠ 0) (a b : Fin 2) : kcov v rot q s a b = cov2 v rot q s (up a) (up b) := by
  unfold kcov
  rw [kres_eq, krs_eq]
  simp only [cov2, tk, cov3]
  refine Finset.sum_congr rfl fun k _ => ?_
  rw [kjw_eq v rot hz b k]
  congr 1
  refine Finset.sum_congr rfl fun j _ => ?_
  rw [kjw_eq v rot hz a j]

end Cert.Splat

end
-- ==== Proof.Blocks.lean ====
/-
  How the grid cuts the arrays. The grid has 1000 points; at point `t` every per-Gaussian array is read or written
  through rows `2000·t … 2000·t + 1999` with all of its columns, and the camera rotation and translation are read
  whole. This file states that as equations between a window's block at a point, read at block coordinates, and
  the array read at the corresponding array coordinates.
-/
import proofs.«115822_j88313117540420_2_alg».proof.Proof.Gen.KernelIdeal.Value
import proofs.«115822_j88313117540420_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Splat.Blocks

open Cert.KernelIdeal Cert.KernelIdeal.Gen Cert.KernelIdeal.Value

variable (m : (ℓ : Loc nD τ sig) → Buf (Elt Ideal) ℓ)

/-- The block index of every window at every grid point: `(t, 0, …)` for the per-Gaussian arrays, `0` for the
    rotation and the translation. -/
theorem idx_all : ∀ t : Fin cfg0.N,
    win0_0.index t (0 : Fin 2) = 0 ∧ win0_0.index t (1 : Fin 2) = 0 ∧ win0_1.index t (0 : Fin 1) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem idx_out : ∀ t : Fin cfg0.N,
    win0_7.index t (0 : Fin 2) = t.val ∧ win0_7.index t (1 : Fin 2) = 0
    ∧ win0_8.index t (0 : Fin 3) = t.val ∧ win0_8.index t (1 : Fin 3) = 0 ∧ win0_8.index t (2 : Fin 3) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem N_eq : cfg0.N = 1000 := N_0

/-- The Gaussian that row `p` of point `t`'s blocks belongs to. -/
def grow (t : Fin cfg0.N) (p : Fin 2000) : Fin 2000000 :=
  ⟨t.val * 2000 + p.val, by have h1 := t.isLt; have h2 := N_eq; have h3 := p.isLt; omega⟩

theorem grow_val (t : Fin cfg0.N) (p : Fin 2000) : (grow t p).val = t.val * 2000 + p.val := rfl

/-- Position block. -/
theorem iblk2_at (c : Dev nD) (t : Fin cfg0.N) (p : Fin 2000) (k : Fin 3) :
    (iblk m c 2 t : Vec Ideal S2000x3 .f32) (ix2 p k)
      = (m ((c : Thread nD τ).loc main_arg0) : S2000000x3.Idx → EReal) (ix2 (grow t p) k) := by
  obtain ⟨_, _, _, h0, h1, _⟩ := idx_all t
  unfold iblk
  rw [View.read_apply]
  show V m c main_arg0 _ = m (c.tc.loc main_arg0) _
  unfold V
  congr 1
  funext a
  apply Fin.ext
  match a with
  | ⟨0, _⟩ => show win0_2.index t (0 : Fin 2) * 2000 + 1 * p.val = t.val * 2000 + p.val; rw [h0]; omega
  | ⟨1, _⟩ => show win0_2.index t (1 : Fin 2) * 3 + 1 * k.val = k.val; rw [h1]; omega

/-- Colour block. -/
theorem iblk3_at (c : Dev nD) (t : Fin cfg0.N) (p : Fin 2000) (k : Fin 3) :
    (iblk m c 3 t : Vec Ideal S2000x3 .f32) (ix2 p k)
      = (m ((c : Thread nD τ).loc main_arg1) : S2000000x3.Idx → EReal) (ix2 (grow t p) k) := by
  obtain ⟨_, _, _, _, _, h0, h1, _⟩ := idx_all t
  unfold iblk
  rw [View.read_apply]
  show V m c main_arg1 _ = m (c.tc.loc main_arg1) _
  unfold V
  congr 1
  funext a
  apply Fin.ext
  match a with
  | ⟨0, _⟩ => show win0_3.index t (0 : Fin 2) * 2000 + 1 * p.val = t.val * 2000 + p.val; rw [h0]; omega
  | ⟨1, _⟩ => show win0_3.index t (1 : Fin 2) * 3 + 1 * k.val = k.val; rw [h1]; omega

/-- Opacity block. -/
theorem iblk4_at (c : Dev nD) (t : Fin cfg0.N) (p : Fin 2000) (k : Fin 1) :
    (iblk m c 4 t : Vec Ideal S2000x1 .f32) (ix2 p k)
      = (m ((c : Thread nD τ).loc main_arg2) : S2000000x1.Idx → EReal) (ix2 (grow t p) k) := by
  obtain ⟨_, _, _, _, _, _, _, h0, h1, _⟩ := idx_all t
  unfold iblk
  rw [View.read_apply]
  show V m c main_arg2 _ = m (c.tc.loc main_arg2) _
  unfold V
  congr 1
  funext a
  apply Fin.ext
  match a with
  | ⟨0, _⟩ => show win0_4.index t (0 : Fin 2) * 2000 + 1 * p.val = t.val * 2000 + p.val; rw [h0]; omega
  | ⟨1, _⟩ => show win0_4.index t (1 : Fin 2) * 1 + 1 * k.val = k.val; rw [h1]; omega

/-- Quaternion block. -/
theorem iblk5_at (c : Dev nD) (t : Fin cfg0.N) (p : Fin 2000) (k : Fin 4) :
    (iblk m c 5 t : Vec Ideal S2000x4 .f32) (ix2 p k)
      = (m ((c : Thread nD τ).loc main_arg3) : S2000000x4.Idx → EReal) (ix2 (grow t p) k) := by
  obtain ⟨_, _, _, _, _, _, _, _, _, h0, h1, _⟩ := idx_all t
  unfold iblk
  rw [View.read_apply]
  show V m c main_arg3 _ = m (c.tc.loc main_arg3) _
  unfold V
  congr 1
  funext a
  apply Fin.ext
  match a with
  | ⟨0, _⟩ => show win0_5.index t (0 : Fin 2) * 2000 + 1 * p.val = t.val * 2000 + p.val; rw [h0]; omega
  | ⟨1, _⟩ => show win0_5.index t (1 : Fin 2) * 4 + 1 * k.val = k.val; rw [h1]; omega

/-- Scale block. -/
theorem iblk6_at (c : Dev nD) (t : Fin cfg0.N) (p : Fin 2000) (k : Fin 3) :
    (iblk m c 6 t : Vec Ideal S2000x3 .f32) (ix2 p k)
      = (m ((c : Thread nD τ).loc main_arg4) : S2000000x3.Idx → EReal) (ix2 (grow t p) k) := by
  obtain ⟨_, _, _, _, _, _, _, _, _, _, _, h0, h1⟩ := idx_all t
  unfold iblk
  rw [View.read_apply]
  show V m c main_arg4 _ = m (c.tc.loc main_arg4) _
  unfold V
  congr 1
  funext a
  apply Fin.ext
  match a with
  | ⟨0, _⟩ => show win0_6.index t (0 : Fin 2) * 2000 + 1 * p.val = t.val * 2000 + p.val; rw [h0]; omega
  | ⟨1, _⟩ => show win0_6.index t (1 : Fin 2) * 3 + 1 * k.val = k.val; rw [h1]; omega

/-- The rotation is read whole at every point. -/
theorem iblk0_at (c : Dev nD) (t : Fin cfg0.N) (a b : Fin 3) :
    (iblk m c 0 t : Vec Ideal S3x3 .f32) (ix2 a b)
      = (m ((c : Thread nD τ).loc main_arg5) : S3x3.Idx → EReal) (ix2 a b) := by
  obtain ⟨h0, h1, _⟩ := idx_all t
  unfold iblk
  rw [View.read_apply]
  show V m c main_arg5 _ = m (c.tc.loc main_arg5) _
  unfold V
  congr 1
  funext x
  apply Fin.ext
  match x with
  | ⟨0, _⟩ => show win0_0.index t (0 : Fin 2) * 3 + 1 * a.val = a.val; rw [h0]; omega
  | ⟨1, _⟩ => show win0_0.index t (1 : Fin 2) * 3 + 1 * b.val = b.val; rw [h1]; omega

/-- The translation is read whole at every point. -/
theorem iblk1_at (c : Dev nD) (t : Fin cfg0.N) (a : Fin 3) :
    (iblk m c 1 t : Vec Ideal S3 .f32) (ix1 a)
      = (m ((c : Thread nD τ).loc main_arg6) : S3.Idx → EReal) (ix1 a) := by
  obtain ⟨_, _, h0, _⟩ := idx_all t
  unfold iblk
  rw [View.read_apply]
  show V m c main_arg6 _ = m (c.tc.loc main_arg6) _
  unfold V
  congr 1
  funext x
  apply Fin.ext
  match x with
  | ⟨0, _⟩ => show win0_1.index t (0 : Fin 1) * 3 + 1 * a.val = a.val; rw [h0]; omega

end Cert.Splat.Blocks

end
-- ==== Proof.LibColumns.lean ====
/-
  Columns, single entries and small stacks read at an index, for any extents and any element type.

  Reading a kernel's re-laid values at an index. The kernel cuts single columns out of a block of rows, views a
  column as a vector and back, reads single entries of the small rotation and translation arrays, and stacks
  per-Gaussian scalars into rows of three and into 2×2 matrices. Each lemma says which entry of the operand an
  entry of the result is; all are about positions only, for any extents and any element type.
-/
import Idealize.ShloMosaic.Lib.Pipeline.Value
import Idealize.ShloMosaic.Lib.ValueIdx
import Idealize.ShloMosaic.Lib.ValueLayout

namespace Cert.Splat.Lay

open Idealize.ShloMosaic Idealize.ShloMosaic.ValueIdx

variable {α : Type}

/-- Column `o` of an `[N, C]` array, cut out as `[N, 1]` and viewed as a vector of length `N`: entry `p` is the
    array's entry `(p, o)`. -/
theorem col_at {N C : ℕ} (o : ℕ) (X : (⟨2, ![N, C]⟩ : Shape).Idx → α)
    (h1 : (⟨2, ![N, C]⟩ : Shape).Slices ![0, o] ⟨2, ![N, 1]⟩)
    (h2 : (⟨2, ![N, 1]⟩ : Shape).ShapeCasts ⟨1, ![N]⟩) (p : Fin N) (k : Fin C) (hk : k.val = o) :
    shapeCast ⟨1, ![N]⟩ (extractStridedSlice ⟨2, ![N, 1]⟩ ![0, o] X h1) h2 (ix1 p) = X (ix2 p k) := by
  refine (shapeCast_apply _ h2 (ix1 p) (ix2 p (0 : Fin 1)) ?_).trans
    (slice2_axis1_apply o X h1 p 0 k (by simpa using hk))
  rw [Shape.rowMajor_val_two, Shape.rowMajor_val_one]
  show p.val * 1 + 0 = p.val
  omega

/-- A vector of length `N` viewed as one column `[N, 1]`: entry `(p, 0)` is the vector's entry `p`. -/
theorem ucol_at {N : ℕ} (v : (⟨1, ![N]⟩ : Shape).Idx → α) (h : (⟨1, ![N]⟩ : Shape).ShapeCasts ⟨2, ![N, 1]⟩)
    (p : Fin N) (z : Fin 1) : shapeCast ⟨2, ![N, 1]⟩ v h (ix2 p z) = v (ix1 p) := by
  refine shapeCast_apply _ h (ix2 p z) (ix1 p) ?_
  rw [Shape.rowMajor_val_two, Shape.rowMajor_val_one]
  show p.val = p.val * 1 + z.val
  have := z.isLt
  omega

/-- An `[N, 2]` array viewed as `[N, 1, 2]`: entry `(p, 0, b)` is entry `(p, b)`. -/
theorem umid_at {N : ℕ} (v : (⟨2, ![N, 2]⟩ : Shape).Idx → α) (h : (⟨2, ![N, 2]⟩ : Shape).ShapeCasts ⟨3, ![N, 1, 2]⟩)
    (p : Fin N) (z : Fin 1) (b : Fin 2) : shapeCast ⟨3, ![N, 1, 2]⟩ v h (ix3 p z b) = v (ix2 p b) := by
  refine shapeCast_apply _ h (ix3 p z b) (ix2 p b) ?_
  rw [Shape.rowMajor_val_three, Shape.rowMajor_val_two]
  show p.val * 2 + b.val = (p.val * 1 + z.val) * 2 + b.val
  have := z.isLt
  omega

/-- One entry of a matrix, taken as a 1×1 cut and then its only element. -/
theorem ent2_at {n0 n1 : ℕ} (o0 o1 : ℕ) (X : (⟨2, ![n0, n1]⟩ : Shape).Idx → α)
    (h : (⟨2, ![n0, n1]⟩ : Shape).Slices ![o0, o1] ⟨2, ![1, 1]⟩)
    (h' : ∀ a, (![0, 0] : Fin 2 → ℕ) a < (⟨2, ![1, 1]⟩ : Shape).size a)
    (a : Fin n0) (b : Fin n1) (ha : a.val = o0) (hb : b.val = o1) :
    extractAt ![0, 0] (extractStridedSlice ⟨2, ![1, 1]⟩ ![o0, o1] X h) h' = X (ix2 a b) := by
  unfold extractAt
  refine extractStridedSlice_apply _ X h _ (ix2 a b) (fun ax => ?_)
  match ax with
  | ⟨0, _⟩ => show a.val = o0 + 0; omega
  | ⟨1, _⟩ => show b.val = o1 + 0; omega

/-- One entry of a vector, taken as a cut of length one and then its only element. -/
theorem ent1_at {n0 : ℕ} (o0 : ℕ) (X : (⟨1, ![n0]⟩ : Shape).Idx → α)
    (h : (⟨1, ![n0]⟩ : Shape).Slices ![o0] ⟨1, ![1]⟩)
    (h' : ∀ a, (![0] : Fin 1 → ℕ) a < (⟨1, ![1]⟩ : Shape).size a)
    (a : Fin n0) (ha : a.val = o0) :
    extractAt ![0] (extractStridedSlice ⟨1, ![1]⟩ ![o0] X h) h' = X (ix1 a) := by
  unfold extractAt
  refine extractStridedSlice_apply _ X h _ (ix1 a) (fun ax => ?_)
  match ax with
  | ⟨0, _⟩ => show a.val = o0 + 0; omega

/-- Three columns side by side: entry `(p, c)` of the row of three is entry `(p, 0)` of column `c`. -/
theorem cat3_at {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) (c : Fin 3) :
    concatenate (⟨2, ![N, 3]⟩ : Shape) 1 [⟨⟨2, ![N, 1]⟩, u0⟩, ⟨⟨2, ![N, 1]⟩, u1⟩, ⟨⟨2, ![N, 1]⟩, u2⟩] h (ix2 p c)
      = (![u0, u1, u2] c) (ix2 p (0 : Fin 1)) := by
  have hi : ∀ b : Fin (⟨2, ![N, 1]⟩ : Shape).rank, b.cast (rfl : (⟨2, ![N, 1]⟩ : Shape).rank = (⟨2, ![N, 3]⟩ : Shape).rank) ≠ (1 : Fin 2) →
      ((ix2 p (0 : Fin 1) : (⟨2, ![N, 1]⟩ : Shape).Idx) b).val = ((ix2 p c : (⟨2, ![N, 3]⟩ : Shape).Idx) (b.cast rfl)).val := by
    intro b hb
    match b with
    | ⟨0, _⟩ => rfl
    | ⟨1, _⟩ => exact absurd rfl hb
  match c with
  | ⟨0, _⟩ => exact concatenate_apply_piece 1 [⟨⟨2, ![N, 1]⟩, u0⟩, ⟨⟨2, ![N, 1]⟩, u1⟩, ⟨⟨2, ![N, 1]⟩, u2⟩] h _ 0 (by simp) _ u0 rfl rfl 0 (by simp) (ix2 p 0) hi (by rfl)
  | ⟨1, _⟩ => exact concatenate_apply_piece 1 [⟨⟨2, ![N, 1]⟩, u0⟩, ⟨⟨2, ![N, 1]⟩, u1⟩, ⟨⟨2, ![N, 1]⟩, u2⟩] h _ 1 (by simp) _ u1 rfl rfl 1 (by simp) (ix2 p 0) hi (by rfl)
  | ⟨2, _⟩ => exact concatenate_apply_piece 1 [⟨⟨2, ![N, 1]⟩, u0⟩, ⟨⟨2, ![N, 1]⟩, u1⟩, ⟨⟨2, ![N, 1]⟩, u2⟩] h _ 2 (by simp) _ u2 rfl rfl 2 (by simp) (ix2 p 0) hi (by rfl)

/-- Two columns side by side. -/
theorem cat2_at {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) (c : Fin 2) :
    concatenate (⟨2, ![N, 2]⟩ : Shape) 1 [⟨⟨2, ![N, 1]⟩, u0⟩, ⟨⟨2, ![N, 1]⟩, u1⟩] h (ix2 p c)
      = (![u0, u1] c) (ix2 p (0 : Fin 1)) := by
  have hi : ∀ b : Fin (⟨2, ![N, 1]⟩ : Shape).rank, b.cast (rfl : (⟨2, ![N, 1]⟩ : Shape).rank = (⟨2, ![N, 2]⟩ : Shape).rank) ≠ (1 : Fin 2) →
      ((ix2 p (0 : Fin 1) : (⟨2, ![N, 1]⟩ : Shape).Idx) b).val = ((ix2 p c : (⟨2, ![N, 2]⟩ : Shape).Idx) (b.cast rfl)).val := by
    intro b hb
    match b with
    | ⟨0, _⟩ => rfl
    | ⟨1, _⟩ => exact absurd rfl hb
  match c with
  | ⟨0, _⟩ => exact concatenate_apply_piece 1 [⟨⟨2, ![N, 1]⟩, u0⟩, ⟨⟨2, ![N, 1]⟩, u1⟩] h _ 0 (by simp) _ u0 rfl rfl 0 (by simp) (ix2 p 0) hi (by rfl)
  | ⟨1, _⟩ => exact concatenate_apply_piece 1 [⟨⟨2, ![N, 1]⟩, u0⟩, ⟨⟨2, ![N, 1]⟩, u1⟩] h _ 1 (by simp) _ u1 rfl rfl 1 (by simp) (ix2 p 0) hi (by rfl)

/-- Two rows of two stacked into a 2×2 matrix per Gaussian: entry `(p, a, b)` is entry `(p, 0, b)` of row `a`. -/
theorem stack2_at {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (a b : Fin 2) :
    concatenate (⟨3, ![N, 2, 2]⟩ : Shape) 1 [⟨⟨3, ![N, 1, 2]⟩, u0⟩, ⟨⟨3, ![N, 1, 2]⟩, u1⟩] h (ix3 p a b)
      = (![u0, u1] a) (ix3 p (0 : Fin 1) b) := by
  have hi : ∀ x : Fin (⟨3, ![N, 1, 2]⟩ : Shape).rank, x.cast (rfl : (⟨3, ![N, 1, 2]⟩ : Shape).rank = (⟨3, ![N, 2, 2]⟩ : Shape).rank) ≠ (1 : Fin 3) →
      ((ix3 p (0 : Fin 1) b : (⟨3, ![N, 1, 2]⟩ : Shape).Idx) x).val = ((ix3 p a b : (⟨3, ![N, 2, 2]⟩ : Shape).Idx) (x.cast rfl)).val := by
    intro x hx
    match x with
    | ⟨0, _⟩ => rfl
    | ⟨1, _⟩ => exact absurd rfl hx
    | ⟨2, _⟩ => rfl
  match a with
  | ⟨0, _⟩ => exact concatenate_apply_piece 1 [⟨⟨3, ![N, 1, 2]⟩, u0⟩, ⟨⟨3, ![N, 1, 2]⟩, u1⟩] h _ 0 (by simp) _ u0 rfl rfl 0 (by simp) (ix3 p 0 b) hi (by rfl)
  | ⟨1, _⟩ => exact concatenate_apply_piece 1 [⟨⟨3, ![N, 1, 2]⟩, u0⟩, ⟨⟨3, ![N, 1, 2]⟩, u1⟩] h _ 1 (by simp) _ u1 rfl rfl 1 (by simp) (ix3 p 0 b) hi (by rfl)

/-! The same, at each literal position. -/

theorem cat3_at0 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (0 : Fin 3))
      = u0 (ix2 p (0 : Fin 1)) := cat3_at u0 u1 u2 h p 0
theorem cat3_at1 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (1 : Fin 3))
      = u1 (ix2 p (0 : Fin 1)) := cat3_at u0 u1 u2 h p 1
theorem cat3_at2 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (2 : Fin 3))
      = u2 (ix2 p (0 : Fin 1)) := cat3_at u0 u1 u2 h p 2

theorem cat2_at0 {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) :
    concatenate (⟨2, ![N, 2]⟩ : Shape) 1 [⟨⟨2, ![N, 1]⟩, u0⟩, ⟨⟨2, ![N, 1]⟩, u1⟩] h (ix2 p (0 : Fin 2))
      = u0 (ix2 p (0 : Fin 1)) := cat2_at u0 u1 h p 0
theorem cat2_at1 {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) :
    concatenate (⟨2, ![N, 2]⟩ : Shape) 1 [⟨⟨2, ![N, 1]⟩, u0⟩, ⟨⟨2, ![N, 1]⟩, u1⟩] h (ix2 p (1 : Fin 2))
      = u1 (ix2 p (0 : Fin 1)) := cat2_at u0 u1 h p 1

theorem stack2_at0 {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (b : Fin 2) :
    concatenate (⟨3, ![N, 2, 2]⟩ : Shape) 1 [⟨⟨3, ![N, 1, 2]⟩, u0⟩, ⟨⟨3, ![N, 1, 2]⟩, u1⟩] h (ix3 p (0 : Fin 2) b)
      = u0 (ix3 p (0 : Fin 1) b) := stack2_at u0 u1 h p 0 b
theorem stack2_at1 {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (b : Fin 2) :
    concatenate (⟨3, ![N, 2, 2]⟩ : Shape) 1 [⟨⟨3, ![N, 1, 2]⟩, u0⟩, ⟨⟨3, ![N, 1, 2]⟩, u1⟩] h (ix3 p (1 : Fin 2) b)
      = u1 (ix3 p (0 : Fin 1) b) := stack2_at u0 u1 h p 1 b

end Cert.Splat.Lay
-- ==== Proof.KernelPayload.lean ====
/-
  What the kernel's body leaves in the image-position and covariance output blocks, entry by entry. The body's value
  for a block is a nest of pointwise operations on columns cut out of the loaded blocks, on single entries of the
  rotation and translation, and on float literals, finally stacked into rows of three and into 2×2 matrices. Read at
  row `p`, every pointwise operation acts on the operands' entries at row `p`, every cut-out column is a column of the
  loaded block, and what results is, term for term, the kernel-shaped form of KernelForm.lean of row `p` of each
  block: `kpos` of the camera coordinates for the image position, `kcov` for the covariance.
-/
import proofs.«115822_j88313117540420_2_alg».proof.Proof.Gen.KernelIdeal.Frame
import proofs.«115822_j88313117540420_2_alg».proof.Proof.Spec
import proofs.«115822_j88313117540420_2_alg».proof.Proof.KernelForm
import proofs.«115822_j88313117540420_2_alg».proof.Proof.LibColumns
import Idealize.ShloMosaic.Lib.Pipeline.Value
import Idealize.ShloMosaic.Lib.ValueIdx

set_option maxRecDepth 16384

noncomputable section

namespace Cert.Splat.Pay

open Cert.KernelIdeal Cert.KernelIdeal.Gen Idealize.ShloMosaic Idealize.ShloMosaic.ValueIdx Cert.Splat

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Columns of a block of 2000 rows, and entries of the rotation and the translation -/

theorem col3_0 (X : (⟨2, ![2000, 3]⟩ : Shape).Idx → EReal)
    (h1 : (⟨2, ![2000, 3]⟩ : Shape).Slices ![0, 0] ⟨2, ![2000, 1]⟩) (h2 : (⟨2, ![2000, 1]⟩ : Shape).ShapeCasts ⟨1, ![2000]⟩) (p : Fin 2000) :
    shapeCast ⟨1, ![2000]⟩ (extractStridedSlice ⟨2, ![2000, 1]⟩ ![0, 0] X h1) h2 (ix1 p) = X (ix2 p 0) :=
  Lay.col_at 0 X h1 h2 p 0 rfl
theorem col3_1 (X : (⟨2, ![2000, 3]⟩ : Shape).Idx → EReal)
    (h1 : (⟨2, ![2000, 3]⟩ : Shape).Slices ![0, 1] ⟨2, ![2000, 1]⟩) (h2 : (⟨2, ![2000, 1]⟩ : Shape).ShapeCasts ⟨1, ![2000]⟩) (p : Fin 2000) :
    shapeCast ⟨1, ![2000]⟩ (extractStridedSlice ⟨2, ![2000, 1]⟩ ![0, 1] X h1) h2 (ix1 p) = X (ix2 p 1) :=
  Lay.col_at 1 X h1 h2 p 1 rfl
theorem col3_2 (X : (⟨2, ![2000, 3]⟩ : Shape).Idx → EReal)
    (h1 : (⟨2, ![2000, 3]⟩ : Shape).Slices ![0, 2] ⟨2, ![2000, 1]⟩) (h2 : (⟨2, ![2000, 1]⟩ : Shape).ShapeCasts ⟨1, ![2000]⟩) (p : Fin 2000) :
    shapeCast ⟨1, ![2000]⟩ (extractStridedSlice ⟨2, ![2000, 1]⟩ ![0, 2] X h1) h2 (ix1 p) = X (ix2 p 2) :=
  Lay.col_at 2 X h1 h2 p 2 rfl
theorem col4_0 (X : (⟨2, ![2000, 4]⟩ : Shape).Idx → EReal)
    (h1 : (⟨2, ![2000, 4]⟩ : Shape).Slices ![0, 0] ⟨2, ![2000, 1]⟩) (h2 : (⟨2, ![2000, 1]⟩ : Shape).ShapeCasts ⟨1, ![2000]⟩) (p : Fin 2000) :
    shapeCast ⟨1, ![2000]⟩ (extractStridedSlice ⟨2, ![2000, 1]⟩ ![0, 0] X h1) h2 (ix1 p) = X (ix2 p 0) :=
  Lay.col_at 0 X h1 h2 p 0 rfl
theorem col4_1 (X : (⟨2, ![2000, 4]⟩ : Shape).Idx → EReal)
    (h1 : (⟨2, ![2000, 4]⟩ : Shape).Slices ![0, 1] ⟨2, ![2000, 1]⟩) (h2 : (⟨2, ![2000, 1]⟩ : Shape).ShapeCasts ⟨1, ![2000]⟩) (p : Fin 2000) :
    shapeCast ⟨1, ![2000]⟩ (extractStridedSlice ⟨2, ![2000, 1]⟩ ![0, 1] X h1) h2 (ix1 p) = X (ix2 p 1) :=
  Lay.col_at 1 X h1 h2 p 1 rfl
theorem col4_2 (X : (⟨2, ![2000, 4]⟩ : Shape).Idx → EReal)
    (h1 : (⟨2, ![2000, 4]⟩ : Shape).Slices ![0, 2] ⟨2, ![2000, 1]⟩) (h2 : (⟨2, ![2000, 1]⟩ : Shape).ShapeCasts ⟨1, ![2000]⟩) (p : Fin 2000) :
    shapeCast ⟨1, ![2000]⟩ (extractStridedSlice ⟨2, ![2000, 1]⟩ ![0, 2] X h1) h2 (ix1 p) = X (ix2 p 2) :=
  Lay.col_at 2 X h1 h2 p 2 rfl
theorem col4_3 (X : (⟨2, ![2000, 4]⟩ : Shape).Idx → EReal)
    (h1 : (⟨2, ![2000, 4]⟩ : Shape).Slices ![0, 3] ⟨2, ![2000, 1]⟩) (h2 : (⟨2, ![2000, 1]⟩ : Shape).ShapeCasts ⟨1, ![2000]⟩) (p : Fin 2000) :
    shapeCast ⟨1, ![2000]⟩ (extractStridedSlice ⟨2, ![2000, 1]⟩ ![0, 3] X h1) h2 (ix1 p) = X (ix2 p 3) :=
  Lay.col_at 3 X h1 h2 p 3 rfl
theorem ent33_00 (X : (⟨2, ![3, 3]⟩ : Shape).Idx → EReal) (h : (⟨2, ![3, 3]⟩ : Shape).Slices ![0, 0] ⟨2, ![1, 1]⟩)
    (h' : ∀ a, (![0, 0] : Fin 2 → ℕ) a < (⟨2, ![1, 1]⟩ : Shape).size a) :
    extractAt ![0, 0] (extractStridedSlice ⟨2, ![1, 1]⟩ ![0, 0] X h) h' = X (ix2 0 0) :=
  Lay.ent2_at 0 0 X h h' 0 0 rfl rfl
theorem ent33_01 (X : (⟨2, ![3, 3]⟩ : Shape).Idx → EReal) (h : (⟨2, ![3, 3]⟩ : Shape).Slices ![0, 1] ⟨2, ![1, 1]⟩)
    (h' : ∀ a, (![0, 0] : Fin 2 → ℕ) a < (⟨2, ![1, 1]⟩ : Shape).size a) :
    extractAt ![0, 0] (extractStridedSlice ⟨2, ![1, 1]⟩ ![0, 1] X h) h' = X (ix2 0 1) :=
  Lay.ent2_at 0 1 X h h' 0 1 rfl rfl
theorem ent33_02 (X : (⟨2, ![3, 3]⟩ : Shape).Idx → EReal) (h : (⟨2, ![3, 3]⟩ : Shape).Slices ![0, 2] ⟨2, ![1, 1]⟩)
    (h' : ∀ a, (![0, 0] : Fin 2 → ℕ) a < (⟨2, ![1, 1]⟩ : Shape).size a) :
    extractAt ![0, 0] (extractStridedSlice ⟨2, ![1, 1]⟩ ![0, 2] X h) h' = X (ix2 0 2) :=
  Lay.ent2_at 0 2 X h h' 0 2 rfl rfl
theorem ent33_10 (X : (⟨2, ![3, 3]⟩ : Shape).Idx → EReal) (h : (⟨2, ![3, 3]⟩ : Shape).Slices ![1, 0] ⟨2, ![1, 1]⟩)
    (h' : ∀ a, (![0, 0] : Fin 2 → ℕ) a < (⟨2, ![1, 1]⟩ : Shape).size a) :
    extractAt ![0, 0] (extractStridedSlice ⟨2, ![1, 1]⟩ ![1, 0] X h) h' = X (ix2 1 0) :=
  Lay.ent2_at 1 0 X h h' 1 0 rfl rfl
theorem ent33_11 (X : (⟨2, ![3, 3]⟩ : Shape).Idx → EReal) (h : (⟨2, ![3, 3]⟩ : Shape).Slices ![1, 1] ⟨2, ![1, 1]⟩)
    (h' : ∀ a, (![0, 0] : Fin 2 → ℕ) a < (⟨2, ![1, 1]⟩ : Shape).size a) :
    extractAt ![0, 0] (extractStridedSlice ⟨2, ![1, 1]⟩ ![1, 1] X h) h' = X (ix2 1 1) :=
  Lay.ent2_at 1 1 X h h' 1 1 rfl rfl
theorem ent33_12 (X : (⟨2, ![3, 3]⟩ : Shape).Idx → EReal) (h : (⟨2, ![3, 3]⟩ : Shape).Slices ![1, 2] ⟨2, ![1, 1]⟩)
    (h' : ∀ a, (![0, 0] : Fin 2 → ℕ) a < (⟨2, ![1, 1]⟩ : Shape).size a) :
    extractAt ![0, 0] (extractStridedSlice ⟨2, ![1, 1]⟩ ![1, 2] X h) h' = X (ix2 1 2) :=
  Lay.ent2_at 1 2 X h h' 1 2 rfl rfl
theorem ent33_20 (X : (⟨2, ![3, 3]⟩ : Shape).Idx → EReal) (h : (⟨2, ![3, 3]⟩ : Shape).Slices ![2, 0] ⟨2, ![1, 1]⟩)
    (h' : ∀ a, (![0, 0] : Fin 2 → ℕ) a < (⟨2, ![1, 1]⟩ : Shape).size a) :
    extractAt ![0, 0] (extractStridedSlice ⟨2, ![1, 1]⟩ ![2, 0] X h) h' = X (ix2 2 0) :=
  Lay.ent2_at 2 0 X h h' 2 0 rfl rfl
theorem ent33_21 (X : (⟨2, ![3, 3]⟩ : Shape).Idx → EReal) (h : (⟨2, ![3, 3]⟩ : Shape).Slices ![2, 1] ⟨2, ![1, 1]⟩)
    (h' : ∀ a, (![0, 0] : Fin 2 → ℕ) a < (⟨2, ![1, 1]⟩ : Shape).size a) :
    extractAt ![0, 0] (extractStridedSlice ⟨2, ![1, 1]⟩ ![2, 1] X h) h' = X (ix2 2 1) :=
  Lay.ent2_at 2 1 X h h' 2 1 rfl rfl
theorem ent33_22 (X : (⟨2, ![3, 3]⟩ : Shape).Idx → EReal) (h : (⟨2, ![3, 3]⟩ : Shape).Slices ![2, 2] ⟨2, ![1, 1]⟩)
    (h' : ∀ a, (![0, 0] : Fin 2 → ℕ) a < (⟨2, ![1, 1]⟩ : Shape).size a) :
    extractAt ![0, 0] (extractStridedSlice ⟨2, ![1, 1]⟩ ![2, 2] X h) h' = X (ix2 2 2) :=
  Lay.ent2_at 2 2 X h h' 2 2 rfl rfl
theorem ent3_0 (X : (⟨1, ![3]⟩ : Shape).Idx → EReal) (h : (⟨1, ![3]⟩ : Shape).Slices ![0] ⟨1, ![1]⟩)
    (h' : ∀ a, (![0] : Fin 1 → ℕ) a < (⟨1, ![1]⟩ : Shape).size a) :
    extractAt ![0] (extractStridedSlice ⟨1, ![1]⟩ ![0] X h) h' = X (ix1 0) :=
  Lay.ent1_at 0 X h h' 0 rfl
theorem ent3_1 (X : (⟨1, ![3]⟩ : Shape).Idx → EReal) (h : (⟨1, ![3]⟩ : Shape).Slices ![1] ⟨1, ![1]⟩)
    (h' : ∀ a, (![0] : Fin 1 → ℕ) a < (⟨1, ![1]⟩ : Shape).size a) :
    extractAt ![0] (extractStridedSlice ⟨1, ![1]⟩ ![1] X h) h' = X (ix1 1) :=
  Lay.ent1_at 1 X h h' 1 rfl
theorem ent3_2 (X : (⟨1, ![3]⟩ : Shape).Idx → EReal) (h : (⟨1, ![3]⟩ : Shape).Slices ![2] ⟨1, ![1]⟩)
    (h' : ∀ a, (![0] : Fin 1 → ℕ) a < (⟨1, ![1]⟩ : Shape).size a) :
    extractAt ![0] (extractStridedSlice ⟨1, ![1]⟩ ![2] X h) h' = X (ix1 2) :=
  Lay.ent1_at 2 X h h' 2 rfl

/-! ## Pointwise operations at an index -/

theorem sqrt_at {s : Shape} (a : FVec Ideal s .f32) (i : s.Idx) : sqrt a i = Ideal.sqrt (a i) := rfl
theorem absf_at {s : Shape} (a : FVec Ideal s .f32) (i : s.Idx) : absf a i = max (a i) (-(a i)) := rfl

/-- Row `p` of a block of 2000 rows, as a family. -/
abbrev brow3 (X : Vec Ideal S2000x3 .f32) (p : Fin 2000) : Fin 3 → EReal := fun k => X (ix2 p k)
abbrev brow4 (X : Vec Ideal S2000x4 .f32) (p : Fin 2000) : Fin 4 → EReal := fun k => X (ix2 p k)

/-! ## The image-position block -/

theorem out7_at0 (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) :
    out0_7 (F := Ideal) x0 x1 x2 x3 x4 x5 x6 (ix2 p (0 : Fin 3)) = kpos (kcam (brow3 x2 p) (mat x0) (vec x1)) (0 : Fin 3) := by
  unfold out0_7
  rw [View.canon_unit_zero hz2]
  simp only [View.ld_unit_zero (S := S3x3) hz2, View.ld_unit_zero (S := S3) hz1, View.ld_unit_zero (S := S2000x3) hz2]
  unfold k0_pay22
  rw [Lay.cat3_at0, Lay.ucol_at]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, mulf_apply, addf_apply, subf_apply, divf_apply, broadcast_apply, sqrt_at, absf_at,
      col3_0, col3_1, col3_2, col4_0, col4_1, col4_2, col4_3, ent33_00, ent33_01, ent33_02, ent33_10, ent33_11, ent33_12, ent33_20, ent33_21, ent33_22, ent3_0, ent3_1, ent3_2]
  rfl

theorem out7_at1 (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) :
    out0_7 (F := Ideal) x0 x1 x2 x3 x4 x5 x6 (ix2 p (1 : Fin 3)) = kpos (kcam (brow3 x2 p) (mat x0) (vec x1)) (1 : Fin 3) := by
  unfold out0_7
  rw [View.canon_unit_zero hz2]
  simp only [View.ld_unit_zero (S := S3x3) hz2, View.ld_unit_zero (S := S3) hz1, View.ld_unit_zero (S := S2000x3) hz2]
  unfold k0_pay22
  rw [Lay.cat3_at1, Lay.ucol_at]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, mulf_apply, addf_apply, subf_apply, divf_apply, broadcast_apply, sqrt_at, absf_at,
      col3_0, col3_1, col3_2, col4_0, col4_1, col4_2, col4_3, ent33_00, ent33_01, ent33_02, ent33_10, ent33_11, ent33_12, ent33_20, ent33_21, ent33_22, ent3_0, ent3_1, ent3_2]
  rfl

theorem out7_at2 (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) :
    out0_7 (F := Ideal) x0 x1 x2 x3 x4 x5 x6 (ix2 p (2 : Fin 3)) = kpos (kcam (brow3 x2 p) (mat x0) (vec x1)) (2 : Fin 3) := by
  unfold out0_7
  rw [View.canon_unit_zero hz2]
  simp only [View.ld_unit_zero (S := S3x3) hz2, View.ld_unit_zero (S := S3) hz1, View.ld_unit_zero (S := S2000x3) hz2]
  unfold k0_pay22
  rw [Lay.cat3_at2, Lay.ucol_at]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, mulf_apply, addf_apply, subf_apply, divf_apply, broadcast_apply, sqrt_at, absf_at,
      col3_0, col3_1, col3_2, col4_0, col4_1, col4_2, col4_3, ent33_00, ent33_01, ent33_02, ent33_10, ent33_11, ent33_12, ent33_20, ent33_21, ent33_22, ent3_0, ent3_1, ent3_2]
  rfl

theorem out7_at (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) (c : Fin 3) :
    out0_7 (F := Ideal) x0 x1 x2 x3 x4 x5 x6 (ix2 p c) = kpos (kcam (brow3 x2 p) (mat x0) (vec x1)) c := by
  match c with
  | ⟨0, _⟩ => exact out7_at0 x0 x1 x2 x3 x4 x5 x6 p
  | ⟨1, _⟩ => exact out7_at1 x0 x1 x2 x3 x4 x5 x6 p
  | ⟨2, _⟩ => exact out7_at2 x0 x1 x2 x3 x4 x5 x6 p

/-! ## The covariance block -/

theorem out8_at00 (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) :
    out0_8 (F := Ideal) x0 x1 x2 x3 x4 x5 x6 (ix3 p (0 : Fin 2) (0 : Fin 2))
      = kcov (kcam (brow3 x2 p) (mat x0) (vec x1)) (mat x0) (brow4 x5 p) (brow3 x6 p) (0 : Fin 2) (0 : Fin 2) := by
  unfold out0_8
  rw [View.canon_unit_zero hz3]
  simp only [View.ld_unit_zero (S := S3x3) hz2, View.ld_unit_zero (S := S3) hz1, View.ld_unit_zero (S := S2000x3) hz2, View.ld_unit_zero (S := S2000x4) hz2]
  unfold k0_pay1
  rw [Lay.stack2_at0, Lay.umid_at, Lay.cat2_at0, Lay.ucol_at]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, mulf_apply, addf_apply, subf_apply, divf_apply, broadcast_apply, sqrt_at, absf_at,
      col3_0, col3_1, col3_2, col4_0, col4_1, col4_2, col4_3, ent33_00, ent33_01, ent33_02, ent33_10, ent33_11, ent33_12, ent33_20, ent33_21, ent33_22, ent3_0, ent3_1, ent3_2]
  rfl

theorem out8_at01 (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) :
    out0_8 (F := Ideal) x0 x1 x2 x3 x4 x5 x6 (ix3 p (0 : Fin 2) (1 : Fin 2))
      = kcov (kcam (brow3 x2 p) (mat x0) (vec x1)) (mat x0) (brow4 x5 p) (brow3 x6 p) (0 : Fin 2) (1 : Fin 2) := by
  unfold out0_8
  rw [View.canon_unit_zero hz3]
  simp only [View.ld_unit_zero (S := S3x3) hz2, View.ld_unit_zero (S := S3) hz1, View.ld_unit_zero (S := S2000x3) hz2, View.ld_unit_zero (S := S2000x4) hz2]
  unfold k0_pay1
  rw [Lay.stack2_at0, Lay.umid_at, Lay.cat2_at1, Lay.ucol_at]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, mulf_apply, addf_apply, subf_apply, divf_apply, broadcast_apply, sqrt_at, absf_at,
      col3_0, col3_1, col3_2, col4_0, col4_1, col4_2, col4_3, ent33_00, ent33_01, ent33_02, ent33_10, ent33_11, ent33_12, ent33_20, ent33_21, ent33_22, ent3_0, ent3_1, ent3_2]
  rfl

theorem out8_at10 (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) :
    out0_8 (F := Ideal) x0 x1 x2 x3 x4 x5 x6 (ix3 p (1 : Fin 2) (0 : Fin 2))
      = kcov (kcam (brow3 x2 p) (mat x0) (vec x1)) (mat x0) (brow4 x5 p) (brow3 x6 p) (1 : Fin 2) (0 : Fin 2) := by
  unfold out0_8
  rw [View.canon_unit_zero hz3]
  simp only [View.ld_unit_zero (S := S3x3) hz2, View.ld_unit_zero (S := S3) hz1, View.ld_unit_zero (S := S2000x3) hz2, View.ld_unit_zero (S := S2000x4) hz2]
  unfold k0_pay1
  rw [Lay.stack2_at1, Lay.umid_at, Lay.cat2_at0, Lay.ucol_at]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, mulf_apply, addf_apply, subf_apply, divf_apply, broadcast_apply, sqrt_at, absf_at,
      col3_0, col3_1, col3_2, col4_0, col4_1, col4_2, col4_3, ent33_00, ent33_01, ent33_02, ent33_10, ent33_11, ent33_12, ent33_20, ent33_21, ent33_22, ent3_0, ent3_1, ent3_2]
  rfl

theorem out8_at11 (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) :
    out0_8 (F := Ideal) x0 x1 x2 x3 x4 x5 x6 (ix3 p (1 : Fin 2) (1 : Fin 2))
      = kcov (kcam (brow3 x2 p) (mat x0) (vec x1)) (mat x0) (brow4 x5 p) (brow3 x6 p) (1 : Fin 2) (1 : Fin 2) := by
  unfold out0_8
  rw [View.canon_unit_zero hz3]
  simp only [View.ld_unit_zero (S := S3x3) hz2, View.ld_unit_zero (S := S3) hz1, View.ld_unit_zero (S := S2000x3) hz2, View.ld_unit_zero (S := S2000x4) hz2]
  unfold k0_pay1
  rw [Lay.stack2_at1, Lay.umid_at, Lay.cat2_at1, Lay.ucol_at]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, mulf_apply, addf_apply, subf_apply, divf_apply, broadcast_apply, sqrt_at, absf_at,
      col3_0, col3_1, col3_2, col4_0, col4_1, col4_2, col4_3, ent33_00, ent33_01, ent33_02, ent33_10, ent33_11, ent33_12, ent33_20, ent33_21, ent33_22, ent3_0, ent3_1, ent3_2]
  rfl

theorem out8_at (x0 : Vec Ideal S3x3 .f32) (x1 : Vec Ideal S3 .f32) (x2 : Vec Ideal S2000x3 .f32) (x3 : Vec Ideal S2000x3 .f32) (x4 : Vec Ideal S2000x1 .f32) (x5 : Vec Ideal S2000x4 .f32) (x6 : Vec Ideal S2000x3 .f32)
    (p : Fin 2000) (a b : Fin 2) :
    out0_8 (F := Ideal) x0 x1 x2 x3 x4 x5 x6 (ix3 p a b)
      = kcov (kcam (brow3 x2 p) (mat x0) (vec x1)) (mat x0) (brow4 x5 p) (brow3 x6 p) a b := by
  match a, b with
  | ⟨0, _⟩, ⟨0, _⟩ => exact out8_at00 x0 x1 x2 x3 x4 x5 x6 p
  | ⟨0, _⟩, ⟨1, _⟩ => exact out8_at01 x0 x1 x2 x3 x4 x5 x6 p
  | ⟨1, _⟩, ⟨0, _⟩ => exact out8_at10 x0 x1 x2 x3 x4 x5 x6 p
  | ⟨1, _⟩, ⟨1, _⟩ => exact out8_at11 x0 x1 x2 x3 x4 x5 x6 p

end Cert.Splat.Pay

end
-- ==== Proof.KernelOut.lean ====
/-
  The kernel's image positions and image-plane covariances, from blocks to whole arrays.

  The grid has 1000 points. At point `t` the kernel writes rows `2000·t … 2000·t + 1999` of the position array
  (all three columns) and of the covariance array (all 2×2 entries); row `p` of that block is computed from row
  `2000·t + p` of the per-Gaussian inputs and from the whole camera rotation and translation. Wherever the depth is
  nonzero that value is the specification's, so every written block is the matching block of the specification's
  array. The blocks of the 1000 points cover every row exactly, hence after the run the two arrays are the
  specification's `G7` and `G8`.
-/
import proofs.«115822_j88313117540420_2_alg».proof.Proof.Gen.KernelIdeal.Value
import proofs.«115822_j88313117540420_2_alg».proof.Proof.Spec
import proofs.«115822_j88313117540420_2_alg».proof.Proof.KernelForm
import proofs.«115822_j88313117540420_2_alg».proof.Proof.Blocks
import proofs.«115822_j88313117540420_2_alg».proof.Proof.KernelPayload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Splat.KOut

open Cert.KernelIdeal Cert.KernelIdeal.Gen Cert.KernelIdeal.Value Cert.Splat Cert.Splat.Blocks

variable (m : (ℓ : Loc nD τ sig) → Buf (Elt Ideal) ℓ)

/-! ## Where a block's entries sit in the array -/

/-- Entry `(p, k)` of point `t`'s position block is entry `(2000·t + p, k)` of the array. -/
theorem emb7 (t : Fin cfg0.N) (p : Fin 2000) (k : Fin 3) :
    ((cfg0.win 7).blk t).view.emb (ix2 p k) = ix2 (grow t p) k := by
  obtain ⟨h0, h1, _⟩ := idx_out t
  funext x
  apply Fin.ext
  match x with
  | ⟨0, _⟩ => show win0_7.index t (0 : Fin 2) * 2000 + 1 * p.val = t.val * 2000 + p.val; rw [h0]; omega
  | ⟨1, _⟩ => show win0_7.index t (1 : Fin 2) * 3 + 1 * k.val = k.val; rw [h1]; omega

/-- Entry `(p, a, b)` of point `t`'s covariance block is entry `(2000·t + p, a, b)` of the array. -/
theorem emb8 (t : Fin cfg0.N) (p : Fin 2000) (a b : Fin 2) :
    ((cfg0.win 8).blk t).view.emb (ix3 p a b) = ix3 (grow t p) a b := by
  obtain ⟨_, _, h0, h1, h2, _⟩ := idx_out t
  funext x
  apply Fin.ext
  match x with
  | ⟨0, _⟩ => show win0_8.index t (0 : Fin 3) * 2000 + 1 * p.val = t.val * 2000 + p.val; rw [h0]; omega
  | ⟨1, _⟩ => show win0_8.index t (1 : Fin 3) * 2 + 1 * a.val = a.val; rw [h1]; omega
  | ⟨2, _⟩ => show win0_8.index t (2 : Fin 3) * 2 + 1 * b.val = b.val; rw [h2]; omega

/-! ## What each point writes back -/

/-- Point `t` writes block `t` of the specification's image positions, provided no depth is zero. -/
theorem flushed7_eq (c : Dev nD)
    (hD : ∀ n : Fin 2000000, camOf (m ((c : Thread nD τ).loc main_arg0)) (m ((c : Thread nD τ).loc main_arg5))
      (m ((c : Thread nD τ).loc main_arg6)) n 2 ≠ 0)
    (t : Fin cfg0.N) :
    (dats m 0 c).flushed 7 t = ((cfg0.win 7).blk t).view.read (Elt Ideal)
      (G7 (m ((c : Thread nD τ).loc main_arg0)) (m ((c : Thread nD τ).loc main_arg5))
        (m ((c : Thread nD τ).loc main_arg6))) := by
  rw [flushed7]
  funext j
  obtain ⟨p, k, rfl⟩ : ∃ (p : Fin 2000) (k : Fin 3), j = ix2 p k := ⟨j 0, j 1, eq_ix2 j⟩
  show out0_7 (F := Ideal) (iblk m c 0 t) (iblk m c 1 t) (iblk m c 2 t) (iblk m c 3 t) (iblk m c 4 t) (iblk m c 5 t)
      (iblk m c 6 t) (ix2 p k)
    = G7 (m ((c : Thread nD τ).loc main_arg0)) (m ((c : Thread nD τ).loc main_arg5))
        (m ((c : Thread nD τ).loc main_arg6)) (((cfg0.win 7).blk t).view.emb (ix2 p k))
  rw [emb7 t p k, G7_ix]
  refine (Pay.out7_at (iblk m c 0 t) (iblk m c 1 t) (iblk m c 2 t) (iblk m c 3 t) (iblk m c 4 t) (iblk m c 5 t)
    (iblk m c 6 t) p k).trans ?_
  have e2 : Pay.brow3 (iblk m c 2 t) p = row3 (m ((c : Thread nD τ).loc main_arg0)) (grow t p) :=
    funext fun k => iblk2_at m c t p k
  have e0 : mat (iblk m c 0 t) = mat (m ((c : Thread nD τ).loc main_arg5)) :=
    funext fun a => funext fun b => iblk0_at m c t a b
  have e1 : vec (iblk m c 1 t) = vec (m ((c : Thread nD τ).loc main_arg6)) := funext fun a => iblk1_at m c t a
  rw [e2, e0, e1, kcam_eq, kpos_eq _ (hD (grow t p))]

/-- Point `t` writes block `t` of the specification's image-plane covariances, provided no depth is zero. -/
theorem flushed8_eq (c : Dev nD)
    (hD : ∀ n : Fin 2000000, camOf (m ((c : Thread nD τ).loc main_arg0)) (m ((c : Thread nD τ).loc main_arg5))
      (m ((c : Thread nD τ).loc main_arg6)) n 2 ≠ 0)
    (t : Fin cfg0.N) :
    (dats m 0 c).flushed 8 t = ((cfg0.win 8).blk t).view.read (Elt Ideal)
      (G8 (m ((c : Thread nD τ).loc main_arg0)) (m ((c : Thread nD τ).loc main_arg3))
        (m ((c : Thread nD τ).loc main_arg4)) (m ((c : Thread nD τ).loc main_arg5))
        (m ((c : Thread nD τ).loc main_arg6))) := by
  rw [flushed8]
  funext j
  obtain ⟨p, a, b, rfl⟩ : ∃ (p : Fin 2000) (a b : Fin 2), j = ix3 p a b := ⟨j 0, j 1, j 2, eq_ix3 j⟩
  show out0_8 (F := Ideal) (iblk m c 0 t) (iblk m c 1 t) (iblk m c 2 t) (iblk m c 3 t) (iblk m c 4 t) (iblk m c 5 t)
      (iblk m c 6 t) (ix3 p a b)
    = G8 (m ((c : Thread nD τ).loc main_arg0)) (m ((c : Thread nD τ).loc main_arg3))
        (m ((c : Thread nD τ).loc main_arg4)) (m ((c : Thread nD τ).loc main_arg5))
        (m ((c : Thread nD τ).loc main_arg6)) (((cfg0.win 8).blk t).view.emb (ix3 p a b))
  rw [emb8 t p a b, G8_ix]
  refine (Pay.out8_at (iblk m c 0 t) (iblk m c 1 t) (iblk m c 2 t) (iblk m c 3 t) (iblk m c 4 t) (iblk m c 5 t)
    (iblk m c 6 t) p a b).trans ?_
  have e2 : Pay.brow3 (iblk m c 2 t) p = row3 (m ((c : Thread nD τ).loc main_arg0)) (grow t p) :=
    funext fun k => iblk2_at m c t p k
  have e5 : Pay.brow4 (iblk m c 5 t) p = row4 (m ((c : Thread nD τ).loc main_arg3)) (grow t p) :=
    funext fun k => iblk5_at m c t p k
  have e6 : Pay.brow3 (iblk m c 6 t) p = row3 (m ((c : Thread nD τ).loc main_arg4)) (grow t p) :=
    funext fun k => iblk6_at m c t p k
  have e0 : mat (iblk m c 0 t) = mat (m ((c : Thread nD τ).loc main_arg5)) :=
    funext fun a => funext fun b => iblk0_at m c t a b
  have e1 : vec (iblk m c 1 t) = vec (m ((c : Thread nD τ).loc main_arg6)) := funext fun a => iblk1_at m c t a
  rw [e2, e5, e6, e0, e1, kcam_eq, kcov_eq _ _ _ _ (hD (grow t p)) a b]

/-! ## The blocks cover the arrays -/

/-- Every entry of the position array lies in the block of the point its row belongs to. -/
theorem cover7 (i : S2000000x3.Idx) :
    ∃ t : Fin cfg0.N, (cfg0.win 7).flush t = true ∧ i ∈ ((cfg0.win 7).blk t).view.set := by
  have hi0 : (i 0).val < 2000000 := (i 0).isLt
  have hi1 : (i 1).val < 3 := (i 1).isLt
  have hN : cfg0.N = 1000 := N_eq
  obtain ⟨t, ht⟩ : ∃ t : Fin cfg0.N, t.val = (i 0).val / 2000 := ⟨⟨(i 0).val / 2000, by rw [hN]; omega⟩, rfl⟩
  obtain ⟨h0, h1, _⟩ := idx_out t
  refine ⟨t, flush0_7 t, ?_⟩
  show i ∈ ((View.whole main_v0_0).slice (win0_7.rect t)).set
  rw [View.set_slice_whole, Rect.mem_set_unit]
  intro a
  match a with
  | ⟨0, _⟩ =>
    show win0_7.index t (0 : Fin 2) * 2000 ≤ (i 0).val ∧ (i 0).val < win0_7.index t (0 : Fin 2) * 2000 + 2000
    rw [h0]; omega
  | ⟨1, _⟩ =>
    show win0_7.index t (1 : Fin 2) * 3 ≤ (i 1).val ∧ (i 1).val < win0_7.index t (1 : Fin 2) * 3 + 3
    rw [h1]; omega

/-- Every entry of the covariance array lies in the block of the point its row belongs to. -/
theorem cover8 (i : S2000000x2x2.Idx) :
    ∃ t : Fin cfg0.N, (cfg0.win 8).flush t = true ∧ i ∈ ((cfg0.win 8).blk t).view.set := by
  have hi0 : (i 0).val < 2000000 := (i 0).isLt
  have hi1 : (i 1).val < 2 := (i 1).isLt
  have hi2 : (i 2).val < 2 := (i 2).isLt
  have hN : cfg0.N = 1000 := N_eq
  obtain ⟨t, ht⟩ : ∃ t : Fin cfg0.N, t.val = (i 0).val / 2000 := ⟨⟨(i 0).val / 2000, by rw [hN]; omega⟩, rfl⟩
  obtain ⟨_, _, h0, h1, h2, _⟩ := idx_out t
  refine ⟨t, flush0_8 t, ?_⟩
  show i ∈ ((View.whole main_v0_1).slice (win0_8.rect t)).set
  rw [View.set_slice_whole, Rect.mem_set_unit]
  intro a
  match a with
  | ⟨0, _⟩ =>
    show win0_8.index t (0 : Fin 3) * 2000 ≤ (i 0).val ∧ (i 0).val < win0_8.index t (0 : Fin 3) * 2000 + 2000
    rw [h0]; omega
  | ⟨1, _⟩ =>
    show win0_8.index t (1 : Fin 3) * 2 ≤ (i 1).val ∧ (i 1).val < win0_8.index t (1 : Fin 3) * 2 + 2
    rw [h1]; omega
  | ⟨2, _⟩ =>
    show win0_8.index t (2 : Fin 3) * 2 ≤ (i 2).val ∧ (i 2).val < win0_8.index t (2 : Fin 3) * 2 + 2
    rw [h2]; omega

/-! ## The arrays after the run -/

/-- After the run the position array is the specification's, provided no depth is zero. -/
theorem final7 (c : Dev nD)
    (hD : ∀ n : Fin 2000000, camOf (m ((c : Thread nD τ).loc main_arg0)) (m ((c : Thread nD τ).loc main_arg5))
      (m ((c : Thread nD τ).loc main_arg6)) n 2 ≠ 0) :
    (dats m 0 c).arrAt 7 cfg0.N
      = G7 (m ((c : Thread nD τ).loc main_arg0)) (m ((c : Thread nD τ).loc main_arg5))
          (m ((c : Thread nD τ).loc main_arg6)) :=
  (dats m 0 c).arrAt_eq_of_cover 7 _ (fun t _ => flushed7_eq m c hD t) cover7

/-- After the run the covariance array is the specification's, provided no depth is zero. -/
theorem final8 (c : Dev nD)
    (hD : ∀ n : Fin 2000000, camOf (m ((c : Thread nD τ).loc main_arg0)) (m ((c : Thread nD τ).loc main_arg5))
      (m ((c : Thread nD τ).loc main_arg6)) n 2 ≠ 0) :
    (dats m 0 c).arrAt 8 cfg0.N
      = G8 (m ((c : Thread nD τ).loc main_arg0)) (m ((c : Thread nD τ).loc main_arg3))
          (m ((c : Thread nD τ).loc main_arg4)) (m ((c : Thread nD τ).loc main_arg5))
          (m ((c : Thread nD τ).loc main_arg6)) :=
  (dats m 0 c).arrAt_eq_of_cover 8 _ (fun t _ => flushed8_eq m c hD t) cover8

end Cert.Splat.KOut

end
-- ==== Proof.KernelSig.lean ====
/-
  The kernel's two logistic outputs, from blocks to whole arrays.

  At grid point `t` the kernel loads rows `2000 t … 2000 t + 1999` of the colour array (and of the opacity array),
  applies the logistic function entry by entry, and writes the result back to the same rows of the output. The 1000
  points' blocks tile the 2000000 rows, so after the run each output array is the logistic function of its argument
  array at every index.
-/
import proofs.«115822_j88313117540420_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.Splat.KSig

open Cert.KernelIdeal Cert.KernelIdeal.Gen Cert.KernelIdeal.Value Cert.Splat.Blocks

variable (m : (ℓ : Loc nD τ sig) → Buf (Elt Ideal) ℓ)

/-- The zero offset of a whole-block access. -/
theorem hz : (![0, 0] : Fin 2 → Nat) = fun _ => 0 := funext fun a => by fin_cases a <;> rfl

/-! ## The colours (output window 9) -/

/-- What the body leaves in the window's buffer, entry by entry: the logistic function of the loaded block. -/
theorem out9_at (x0 : Vec Ideal S3x3 .f32) (x1 : Vec Ideal S3 .f32) (x2 : Vec Ideal S2000x3 .f32)
    (x3 : Vec Ideal S2000x3 .f32) (x4 : Vec Ideal S2000x1 .f32) (x5 : Vec Ideal S2000x4 .f32) (x6 : Vec Ideal S2000x3 .f32) (p : Fin 2000) (k : Fin 3) :
    out0_9 (F := Ideal) x0 x1 x2 x3 x4 x5 x6 (ix2 p k) = Ideal.logistic (x3 (ix2 p k)) := by
  unfold out0_9
  rw [View.canon_unit_zero hz]
  simp only [View.ld_unit_zero (S := S2000x3) hz]
  rfl

/-- Row `p`, column `k` of point `t`'s block is row `2000 t + p`, column `k` of the array. -/
theorem emb9 (t : Fin cfg0.N) (p : Fin 2000) (k : Fin 3) :
    ((cfg0.win 9).blk t).view.emb (ix2 p k) = ix2 (grow t p) k := by
  obtain ⟨_, _, _, _, _, h0, h1, _⟩ := idx_out t
  funext a
  apply Fin.ext
  match a with
  | ⟨0, _⟩ => show win0_9.index t (0 : Fin 2) * 2000 + 1 * p.val = t.val * 2000 + p.val; rw [h0]; omega
  | ⟨1, _⟩ => show win0_9.index t (1 : Fin 2) * 3 + 1 * k.val = k.val; rw [h1]; omega

/-- What point `t` writes back is block `t` of the logistic function of the argument array. -/
theorem flushed9_eq (c : Dev nD) (t : Fin cfg0.N) :
    (dats m 0 c).flushed 9 t
      = ((cfg0.win 9).blk t).view.read (Elt Ideal) (Cert.Splat.G9 (m ((c : Thread nD τ).loc main_arg1))) := by
  rw [flushed9]
  funext j
  obtain ⟨p, k, rfl⟩ : ∃ (p : Fin 2000) (k : Fin 3), j = ix2 p k := ⟨j 0, j 1, eq_ix2 j⟩
  show out0_9 (F := Ideal) (iblk m c 0 t) (iblk m c 1 t) (iblk m c 2 t) (iblk m c 3 t) (iblk m c 4 t) (iblk m c 5 t) (iblk m c 6 t) (ix2 p k)
    = Cert.Splat.G9 (m ((c : Thread nD τ).loc main_arg1)) (((cfg0.win 9).blk t).view.emb (ix2 p k))
  refine (out9_at (iblk m c 0 t) (iblk m c 1 t) (iblk m c 2 t) (iblk m c 3 t) (iblk m c 4 t) (iblk m c 5 t) (iblk m c 6 t) p k).trans ?_
  rw [emb9, iblk3_at]
  rfl

/-- Every index of the array lies in the block of the point `⌊row / 2000⌋`, and every point writes back. -/
theorem cover9 (i : S2000000x3.Idx) :
    ∃ t : Fin cfg0.N, (cfg0.win 9).flush t = true ∧ i ∈ ((cfg0.win 9).blk t).view.set := by
  have hi0 : (i 0).val < 2000000 := (i 0).isLt
  have hi1 : (i 1).val < 3 := (i 1).isLt
  obtain ⟨t, ht⟩ : ∃ t : Fin cfg0.N, t.val = (i 0).val / 2000 :=
    ⟨⟨(i 0).val / 2000, by rw [N_eq]; omega⟩, rfl⟩
  refine ⟨t, flush0_9 t, ?_⟩
  obtain ⟨_, _, _, _, _, h0, h1, _⟩ := idx_out t
  show i ∈ ((View.whole main_v0_2).slice (win0_9.rect t)).set
  rw [View.set_slice_whole, Rect.mem_set_unit]
  intro a
  match a with
  | ⟨0, _⟩ =>
    show win0_9.index t (0 : Fin 2) * 2000 ≤ (i 0).val ∧ (i 0).val < win0_9.index t (0 : Fin 2) * 2000 + 2000
    rw [h0]; omega
  | ⟨1, _⟩ =>
    show win0_9.index t (1 : Fin 2) * 3 ≤ (i 1).val ∧ (i 1).val < win0_9.index t (1 : Fin 2) * 3 + 3
    rw [h1]; omega

/-- So after the run the array holds the logistic function of the argument array, entry by entry. -/
theorem final9 (c : Dev nD) :
    (dats m 0 c).arrAt 9 cfg0.N = Cert.Splat.G9 (m ((c : Thread nD τ).loc main_arg1)) :=
  (dats m 0 c).arrAt_eq_of_cover 9 _ (fun t _ => flushed9_eq m c t) (fun i => cover9 i)

/-! ## The opacities (output window 10) -/

/-- What the body leaves in the window's buffer, entry by entry: the logistic function of the loaded block. -/
theorem out10_at (x0 : Vec Ideal S3x3 .f32) (x1 : Vec Ideal S3 .f32) (x2 : Vec Ideal S2000x3 .f32)
    (x3 : Vec Ideal S2000x3 .f32) (x4 : Vec Ideal S2000x1 .f32) (x5 : Vec Ideal S2000x4 .f32) (x6 : Vec Ideal S2000x3 .f32) (p : Fin 2000) (k : Fin 1) :
    out0_10 (F := Ideal) x0 x1 x2 x3 x4 x5 x6 (ix2 p k) = Ideal.logistic (x4 (ix2 p k)) := by
  unfold out0_10
  rw [View.canon_unit_zero hz]
  simp only [View.ld_unit_zero (S := S2000x1) hz]
  rfl

/-- Row `p`, column `k` of point `t`'s block is row `2000 t + p`, column `k` of the array. -/
theorem emb10 (t : Fin cfg0.N) (p : Fin 2000) (k : Fin 1) :
    ((cfg0.win 10).blk t).view.emb (ix2 p k) = ix2 (grow t p) k := by
  obtain ⟨_, _, _, _, _, _, _, h0, h1⟩ := idx_out t
  funext a
  apply Fin.ext
  match a with
  | ⟨0, _⟩ => show win0_10.index t (0 : Fin 2) * 2000 + 1 * p.val = t.val * 2000 + p.val; rw [h0]; omega
  | ⟨1, _⟩ => show win0_10.index t (1 : Fin 2) * 1 + 1 * k.val = k.val; rw [h1]; omega

/-- What point `t` writes back is block `t` of the logistic function of the argument array. -/
theorem flushed10_eq (c : Dev nD) (t : Fin cfg0.N) :
    (dats m 0 c).flushed 10 t
      = ((cfg0.win 10).blk t).view.read (Elt Ideal) (Cert.Splat.G10 (m ((c : Thread nD τ).loc main_arg2))) := by
  rw [flushed10]
  funext j
  obtain ⟨p, k, rfl⟩ : ∃ (p : Fin 2000) (k : Fin 1), j = ix2 p k := ⟨j 0, j 1, eq_ix2 j⟩
  show out0_10 (F := Ideal) (iblk m c 0 t) (iblk m c 1 t) (iblk m c 2 t) (iblk m c 3 t) (iblk m c 4 t) (iblk m c 5 t) (iblk m c 6 t) (ix2 p k)
    = Cert.Splat.G10 (m ((c : Thread nD τ).loc main_arg2)) (((cfg0.win 10).blk t).view.emb (ix2 p k))
  refine (out10_at (iblk m c 0 t) (iblk m c 1 t) (iblk m c 2 t) (iblk m c 3 t) (iblk m c 4 t) (iblk m c 5 t) (iblk m c 6 t) p k).trans ?_
  rw [emb10, iblk4_at]
  rfl

/-- Every index of the array lies in the block of the point `⌊row / 2000⌋`, and every point writes back. -/
theorem cover10 (i : S2000000x1.Idx) :
    ∃ t : Fin cfg0.N, (cfg0.win 10).flush t = true ∧ i ∈ ((cfg0.win 10).blk t).view.set := by
  have hi0 : (i 0).val < 2000000 := (i 0).isLt
  have hi1 : (i 1).val < 1 := (i 1).isLt
  obtain ⟨t, ht⟩ : ∃ t : Fin cfg0.N, t.val = (i 0).val / 2000 :=
    ⟨⟨(i 0).val / 2000, by rw [N_eq]; omega⟩, rfl⟩
  refine ⟨t, flush0_10 t, ?_⟩
  obtain ⟨_, _, _, _, _, _, _, h0, h1⟩ := idx_out t
  show i ∈ ((View.whole main_v0_3).slice (win0_10.rect t)).set
  rw [View.set_slice_whole, Rect.mem_set_unit]
  intro a
  match a with
  | ⟨0, _⟩ =>
    show win0_10.index t (0 : Fin 2) * 2000 ≤ (i 0).val ∧ (i 0).val < win0_10.index t (0 : Fin 2) * 2000 + 2000
    rw [h0]; omega
  | ⟨1, _⟩ =>
    show win0_10.index t (1 : Fin 2) * 1 ≤ (i 1).val ∧ (i 1).val < win0_10.index t (1 : Fin 2) * 1 + 1
    rw [h1]; omega

/-- So after the run the array holds the logistic function of the argument array, entry by entry. -/
theorem final10 (c : Dev nD) :
    (dats m 0 c).arrAt 10 cfg0.N = Cert.Splat.G10 (m ((c : Thread nD τ).loc main_arg2)) :=
  (dats m 0 c).arrAt_eq_of_cover 10 _ (fun t _ => flushed10_eq m c t) (fun i => cover10 i)

end Cert.Splat.KSig

end
-- ==== Proof.RefCam.lean ====
/-
  The reference program's camera coordinates.

  For Gaussian `n` the reference first forms `v i = (Σ k, p k · rot i k) + tr i` (a transpose of the rotation, a
  contraction over the three world coordinates, and the translation broadcast along the Gaussians). This file
  reads that array at an index and identifies it with the specification's `camOf`; it does the same for the three
  coordinate vectors sliced out of it, and for the Euclidean length `sqrt (Σ k, v k · v k)` of each row.
-/
import proofs.«115822_j88313117540420_2_alg».proof.Proof.Spec
import proofs.«115822_j88313117540420_2_alg».proof.Proof.Gen.ReferenceIdeal.Read

noncomputable section

namespace Cert.Splat.RefCam

open Cert.ReferenceIdeal Cert.ReferenceIdeal.Gen Cert.ReferenceIdeal.Read Idealize.ShloMosaic Idealize.ShloMosaic.ValueIdx
  Idealize.ShloMosaic.StableHlo

variable (x0 : (⟨S2000000x3, .f32⟩ : BufTy).Contents (Elt Ideal)) (x5 : (⟨S3x3, .f32⟩ : BufTy).Contents (Elt Ideal))
  (x6 : (⟨S3, .f32⟩ : BufTy).Contents (Elt Ideal))

/-- Entry `(n, i)` of the camera-coordinate array is camera coordinate `i` of Gaussian `n`. -/
theorem cam_at (n : Fin 2000000) (i : Fin 3) :
    val_main_v4 (F := Ideal) x0 x5 x6 (ix2 n i) = Cert.Splat.camOf x0 x5 x6 n i := by
  rw [val_main_v4_apply, val_main_v1_apply, val_main_v3_apply, val_main_v2_apply]
  show (∑ k : Fin 3, x0 (lidx_main_v1 (ix2 n i) k) * val_main_v0 (F := Ideal) x5 (ridx_main_v1 (ix2 n i) k))
      + x6 (idx_main_v2 (idx_main_v3 (ix2 n i)))
    = (∑ k : Fin 3, x0 (ix2 n k) * x5 (ix2 i k)) + x6 (ix1 i)
  have hs : ∀ k : Fin 3, x0 (lidx_main_v1 (ix2 n i) k) * val_main_v0 (F := Ideal) x5 (ridx_main_v1 (ix2 n i) k)
      = x0 (ix2 n k) * x5 (ix2 i k) := fun k => by
    rw [val_main_v0_apply]
    have e0 : lidx_main_v1 (ix2 n i) k = ix2 n k :=
      funext fun a => Fin.ext (by match a with | ⟨0, _⟩ => rfl | ⟨1, _⟩ => rfl)
    have e1 : idx_main_v0 (ridx_main_v1 (ix2 n i) k) = ix2 i k :=
      funext fun a => Fin.ext (by match a with | ⟨0, _⟩ => rfl | ⟨1, _⟩ => rfl)
    rw [e0, e1]
  have ht : idx_main_v2 (idx_main_v3 (ix2 n i)) = ix1 i :=
    funext fun a => Fin.ext (by match a with | ⟨0, _⟩ => rfl)
  rw [Finset.sum_congr rfl fun k _ => hs k, ht]

/-- The first coordinate vector: entry `n` is `v 0` of Gaussian `n`. -/
theorem x_at (n : Fin 2000000) :
    val_main_v6 (F := Ideal) x0 x5 x6 (ix1 n) = Cert.Splat.camOf x0 x5 x6 n 0 := by
  rw [val_main_v6_apply, val_main_v5_apply]
  have e : idx_main_v5 (idx_main_v6 (ix1 n)) = ix2 n (0 : Fin 3) :=
    funext fun a => Fin.ext (by
      match a with
      | ⟨0, _⟩ => exact Nat.div_one n.val
      | ⟨1, _⟩ => rfl)
  rw [e]
  exact cam_at x0 x5 x6 n 0

/-- The second coordinate vector: entry `n` is `v 1` of Gaussian `n`. -/
theorem y_at (n : Fin 2000000) :
    val_main_v8 (F := Ideal) x0 x5 x6 (ix1 n) = Cert.Splat.camOf x0 x5 x6 n 1 := by
  rw [val_main_v8_apply, val_main_v7_apply]
  have e : idx_main_v7 (idx_main_v8 (ix1 n)) = ix2 n (1 : Fin 3) :=
    funext fun a => Fin.ext (by
      match a with
      | ⟨0, _⟩ => exact Nat.div_one n.val
      | ⟨1, _⟩ => rfl)
  rw [e]
  exact cam_at x0 x5 x6 n 1

/-- The third coordinate vector (the depth): entry `n` is `v 2` of Gaussian `n`. -/
theorem z_at (n : Fin 2000000) :
    val_main_v10 (F := Ideal) x0 x5 x6 (ix1 n) = Cert.Splat.camOf x0 x5 x6 n 2 := by
  rw [val_main_v10_apply, val_main_v9_apply]
  have e : idx_main_v9 (idx_main_v10 (ix1 n)) = ix2 n (2 : Fin 3) :=
    funext fun a => Fin.ext (by
      match a with
      | ⟨0, _⟩ => exact Nat.div_one n.val
      | ⟨1, _⟩ => rfl)
  rw [e]
  exact cam_at x0 x5 x6 n 2

/-- The distance vector: entry `n` is the Euclidean length of Gaussian `n`'s camera point. The sum of squares
    starts from the literal zero, which is the additive identity. -/
theorem dist_at (n : Fin 2000000) :
    val_main_v11 (F := Ideal) x0 x5 x6 (ix1 n) = Cert.Splat.norm3 (Cert.Splat.camOf x0 x5 x6 n) := by
  rw [val_main_v11_apply, val_main_call0_v1_apply]
  show Ideal.sqrt (Ideal.ofBits .f32 0x00000000#32
      + ∑ k : Fin 3, val_main_call0_v0 (F := Ideal) x0 x5 x6 (idx_main_call0_v1 (ix1 n) k))
    = Ideal.sqrt (∑ k : Fin 3, Cert.Splat.camOf x0 x5 x6 n k * Cert.Splat.camOf x0 x5 x6 n k)
  rw [Ideal.ofBits_zero_f32, zero_add]
  refine congrArg Ideal.sqrt (Finset.sum_congr rfl fun k _ => ?_)
  have e : idx_main_call0_v1 (ix1 n) k = ix2 n k :=
    funext fun a => Fin.ext (by match a with | ⟨0, _⟩ => rfl | ⟨1, _⟩ => rfl)
  rw [val_main_call0_v0_apply, e, cam_at x0 x5 x6 n k]
  rfl

end Cert.Splat.RefCam

end
-- ==== Proof.RefPos.lean ====
/-
  The reference program's image positions.

  The reference joins three columns, each a vector over the Gaussians viewed as a one-column array: `x / z`,
  `y / z` and the distance `|v|`, where `v = (x, y, z)` is the Gaussian's camera point. This file reads the joined
  array at `(n, c)`: the entry comes from column `c`, whose entry `n` is the matching component of the
  specification's `posImg`. Hence the whole array is the specification's `G7`.
-/
import proofs.«115822_j88313117540420_2_alg».proof.Proof.Spec
import proofs.«115822_j88313117540420_2_alg».proof.Proof.Gen.ReferenceIdeal.Read
import proofs.«115822_j88313117540420_2_alg».proof.Proof.RefCam

noncomputable section

namespace Cert.Splat.RefPos

open Cert.ReferenceIdeal Cert.ReferenceIdeal.Gen Cert.ReferenceIdeal.Read Idealize.ShloMosaic Idealize.ShloMosaic.ValueIdx
  Idealize.ShloMosaic.StableHlo

variable (x0 : (⟨S2000000x3, .f32⟩ : BufTy).Contents (Elt Ideal)) (x5 : (⟨S3x3, .f32⟩ : BufTy).Contents (Elt Ideal))
  (x6 : (⟨S3, .f32⟩ : BufTy).Contents (Elt Ideal))

/-- Three one-column arrays joined along the column axis, read at `(n, 0)`: entry `(n, 0)` of the first. -/
theorem join3_at0 (A B C : S2000000x1.Idx → EReal)
    (h : Shape.Concatenates (([⟨S2000000x1, A⟩, ⟨S2000000x1, B⟩, ⟨S2000000x1, C⟩] :
      List ((s : Shape) × (s.Idx → EReal))).map (·.1)) S2000000x3 1)
    (n : Fin 2000000) :
    concatenate S2000000x3 1 [⟨S2000000x1, A⟩, ⟨S2000000x1, B⟩, ⟨S2000000x1, C⟩] h (ix2 n (0 : Fin 3))
      = A (ix2 n (0 : Fin 1)) :=
  concatenate_apply_piece (t := S2000000x3) 1 _ h (ix2 n (0 : Fin 3)) 0 (show 0 < 3 by decide) S2000000x1 A rfl rfl 0 (by rfl)
    (ix2 n (0 : Fin 1))
    (fun b hb => by
      match b with
      | ⟨0, _⟩ => rfl
      | ⟨1, _⟩ => exact absurd rfl hb)
    rfl

/-- The same array read at `(n, 1)`: entry `(n, 0)` of the second. -/
theorem join3_at1 (A B C : S2000000x1.Idx → EReal)
    (h : Shape.Concatenates (([⟨S2000000x1, A⟩, ⟨S2000000x1, B⟩, ⟨S2000000x1, C⟩] :
      List ((s : Shape) × (s.Idx → EReal))).map (·.1)) S2000000x3 1)
    (n : Fin 2000000) :
    concatenate S2000000x3 1 [⟨S2000000x1, A⟩, ⟨S2000000x1, B⟩, ⟨S2000000x1, C⟩] h (ix2 n (1 : Fin 3))
      = B (ix2 n (0 : Fin 1)) :=
  concatenate_apply_piece (t := S2000000x3) 1 _ h (ix2 n (1 : Fin 3)) 1 (show 1 < 3 by decide) S2000000x1 B rfl rfl 1 (by rfl)
    (ix2 n (0 : Fin 1))
    (fun b hb => by
      match b with
      | ⟨0, _⟩ => rfl
      | ⟨1, _⟩ => exact absurd rfl hb)
    rfl

/-- The same array read at `(n, 2)`: entry `(n, 0)` of the third. -/
theorem join3_at2 (A B C : S2000000x1.Idx → EReal)
    (h : Shape.Concatenates (([⟨S2000000x1, A⟩, ⟨S2000000x1, B⟩, ⟨S2000000x1, C⟩] :
      List ((s : Shape) × (s.Idx → EReal))).map (·.1)) S2000000x3 1)
    (n : Fin 2000000) :
    concatenate S2000000x3 1 [⟨S2000000x1, A⟩, ⟨S2000000x1, B⟩, ⟨S2000000x1, C⟩] h (ix2 n (2 : Fin 3))
      = C (ix2 n (0 : Fin 1)) :=
  concatenate_apply_piece (t := S2000000x3) 1 _ h (ix2 n (2 : Fin 3)) 2 (show 2 < 3 by decide) S2000000x1 C rfl rfl 2 (by rfl)
    (ix2 n (0 : Fin 1))
    (fun b hb => by
      match b with
      | ⟨0, _⟩ => rfl
      | ⟨1, _⟩ => exact absurd rfl hb)
    rfl

/-- Column 0 of the image positions: `x / z`. -/
theorem col0_at (n : Fin 2000000) :
    val_main_v14 (F := Ideal) x0 x5 x6 (ix2 n (0 : Fin 1))
      = Ideal.div (Cert.Splat.camOf x0 x5 x6 n 0) (Cert.Splat.camOf x0 x5 x6 n 2) := by
  rw [val_main_v14_apply, val_main_v12_apply]
  have e : idx_main_v14 (ix2 n (0 : Fin 1)) = ix1 n := funext fun a => Fin.ext (by match a with | ⟨0, _⟩ => rfl)
  rw [e, RefCam.x_at, RefCam.z_at]
  rfl

/-- Column 1 of the image positions: `y / z`. -/
theorem col1_at (n : Fin 2000000) :
    val_main_v15 (F := Ideal) x0 x5 x6 (ix2 n (0 : Fin 1))
      = Ideal.div (Cert.Splat.camOf x0 x5 x6 n 1) (Cert.Splat.camOf x0 x5 x6 n 2) := by
  rw [val_main_v15_apply, val_main_v13_apply]
  have e : idx_main_v15 (ix2 n (0 : Fin 1)) = ix1 n := funext fun a => Fin.ext (by match a with | ⟨0, _⟩ => rfl)
  rw [e, RefCam.y_at, RefCam.z_at]
  rfl

/-- Column 2 of the image positions: the distance. -/
theorem col2_at (n : Fin 2000000) :
    val_main_v16 (F := Ideal) x0 x5 x6 (ix2 n (0 : Fin 1)) = Cert.Splat.norm3 (Cert.Splat.camOf x0 x5 x6 n) := by
  rw [val_main_v16_apply]
  have e : idx_main_v16 (ix2 n (0 : Fin 1)) = ix1 n := funext fun a => Fin.ext (by match a with | ⟨0, _⟩ => rfl)
  rw [e, RefCam.dist_at]

/-- The reference's first result is the array of image positions. -/
theorem ref_pos : val_main_v17 (F := Ideal) x0 x5 x6 = Cert.Splat.G7 x0 x5 x6 := by
  funext j
  obtain ⟨n, c, rfl⟩ : ∃ (n : Fin 2000000) (c : Fin 3), j = ix2 n c := ⟨j 0, j 1, eq_ix2 j⟩
  rw [Cert.Splat.G7_ix]
  unfold val_main_v17
  generalize hA : val_main_v14 (F := Ideal) x0 x5 x6 = A
  generalize hB : val_main_v15 (F := Ideal) x0 x5 x6 = B
  generalize hC : val_main_v16 (F := Ideal) x0 x5 x6 = C
  match c with
  | ⟨0, _⟩ =>
    refine (join3_at0 A B C _ n).trans ?_
    rw [← hA, col0_at]
    rfl
  | ⟨1, _⟩ =>
    refine (join3_at1 A B C _ n).trans ?_
    rw [← hB, col1_at]
    rfl
  | ⟨2, _⟩ =>
    refine (join3_at2 A B C _ n).trans ?_
    rw [← hC, col2_at]
    rfl

end Cert.Splat.RefPos

end
-- ==== Proof.RefOrient.lean ====
/-
  The reference program's orientation and 3-D covariance, read one Gaussian at a time.

  For Gaussian `n` with quaternion row `q` and scale row `s`: the array of normalised quaternions holds
  `q / |q|`; the nine vectors the program stacks are the nine entries of the rotation matrix of `q / |q|`;
  the stacked and reshaped array is that matrix; multiplying its columns by `|s| + ε` gives `R S`; and the batched
  contraction over the last axes gives `(R S)(R S)ᵀ`.
-/
import proofs.«115822_j88313117540420_2_alg».proof.Proof.Spec
import proofs.«115822_j88313117540420_2_alg».proof.Proof.Gen.ReferenceIdeal.Read

noncomputable section

namespace Cert.Splat.RefOrient

open Idealize.ShloMosaic Idealize.ShloMosaic.ValueIdx Cert.ReferenceIdeal Cert.ReferenceIdeal.Read Cert.Splat

/-! ## The normalised quaternion -/

/-- The quaternion array divided by its row norms: entry `(n, k)` is component `k` of `q / |q|` for Gaussian `n`.
    The row norm is the square root of zero plus the sum of the four squares. -/
theorem quat_at (x3 : (⟨S2000000x4, .f32⟩ : BufTy).Contents (Elt Ideal)) (n : Fin 2000000) (k : Fin 4) :
    val_main_v45 (F := Ideal) x3 (ix2 n k) = quatN (row4 x3 n) k := by
  rw [val_main_v45_apply, val_main_v44_apply, val_main_v43_apply, val_main_call1_v2_apply, val_main_call1_v1_apply]
  have e : ∀ k' : Fin 4, idx_main_call1_v1 (idx_main_call1_v2 (idx_main_v44 (ix2 n k))) k' = ix2 n k' := fun k' =>
    funext fun a => Fin.ext (by match a with | ⟨0, _⟩ => rfl | ⟨1, _⟩ => rfl)
  simp only [e]
  show Ideal.div (x3 (ix2 n k))
    (Ideal.sqrt (Ideal.ofBits .f32 0x00000000#32 + ∑ k' : Fin 4, x3 (ix2 n k') * x3 (ix2 n k'))) = _
  rw [Ideal.ofBits_zero_f32, zero_add]
  rfl

/-- Column 0 of the normalised quaternions, as a vector over the Gaussians. -/
theorem col0_at (x3 : (⟨S2000000x4, .f32⟩ : BufTy).Contents (Elt Ideal)) (n : Fin 2000000) :
    val_main_v47 (F := Ideal) x3 (ix1 n) = quatN (row4 x3 n) 0 := by
  rw [val_main_v47_apply, val_main_v46_apply]
  have e : idx_main_v46 (idx_main_v47 (ix1 n)) = ix2 n 0 :=
    funext fun a => Fin.ext (by match a with | ⟨0, _⟩ => exact Nat.div_one _ | ⟨1, _⟩ => rfl)
  rw [e]
  exact quat_at x3 n 0

/-- Column 1 of the normalised quaternions, as a vector over the Gaussians. -/
theorem col1_at (x3 : (⟨S2000000x4, .f32⟩ : BufTy).Contents (Elt Ideal)) (n : Fin 2000000) :
    val_main_v49 (F := Ideal) x3 (ix1 n) = quatN (row4 x3 n) 1 := by
  rw [val_main_v49_apply, val_main_v48_apply]
  have e : idx_main_v48 (idx_main_v49 (ix1 n)) = ix2 n 1 :=
    funext fun a => Fin.ext (by match a with | ⟨0, _⟩ => exact Nat.div_one _ | ⟨1, _⟩ => rfl)
  rw [e]
  exact quat_at x3 n 1

/-- Column 2 of the normalised quaternions, as a vector over the Gaussians. -/
theorem col2_at (x3 : (⟨S2000000x4, .f32⟩ : BufTy).Contents (Elt Ideal)) (n : Fin 2000000) :
    val_main_v51 (F := Ideal) x3 (ix1 n) = quatN (row4 x3 n) 2 := by
  rw [val_main_v51_apply, val_main_v50_apply]
  have e : idx_main_v50 (idx_main_v51 (ix1 n)) = ix2 n 2 :=
    funext fun a => Fin.ext (by match a with | ⟨0, _⟩ => exact Nat.div_one _ | ⟨1, _⟩ => rfl)
  rw [e]
  exact quat_at x3 n 2

/-- Column 3 of the normalised quaternions, as a vector over the Gaussians. -/
theorem col3_at (x3 : (⟨S2000000x4, .f32⟩ : BufTy).Contents (Elt Ideal)) (n : Fin 2000000) :
    val_main_v53 (F := Ideal) x3 (ix1 n) = quatN (row4 x3 n) 3 := by
  rw [val_main_v53_apply, val_main_v52_apply]
  have e : idx_main_v52 (idx_main_v53 (ix1 n)) = ix2 n 3 :=
    funext fun a => Fin.ext (by match a with | ⟨0, _⟩ => exact Nat.div_one _ | ⟨1, _⟩ => rfl)
  rw [e]
  exact quat_at x3 n 3

/-! ## The nine entries of the orientation matrix

Each is the same expression in the four normalised components as the corresponding entry of the rotation matrix
of a unit quaternion, so once the components are identified the two sides agree by unfolding. -/

/-- Entry (0, 0) of the orientation matrix, as a vector over the Gaussians. -/
theorem e00_at (x3 : (⟨S2000000x4, .f32⟩ : BufTy).Contents (Elt Ideal)) (n : Fin 2000000) :
    val_main_v60 (F := Ideal) x3 (ix1 n) = orient (row4 x3 n) 0 0 := by
  rw [val_main_v60_apply, val_main_v59_apply, val_main_v58_apply, val_main_v57_apply, val_main_v56_apply, val_main_v54_apply, val_main_v55_apply, col2_at, col3_at]
  rfl

/-- Entry (0, 1) of the orientation matrix, as a vector over the Gaussians. -/
theorem e01_at (x3 : (⟨S2000000x4, .f32⟩ : BufTy).Contents (Elt Ideal)) (n : Fin 2000000) :
    val_main_v65 (F := Ideal) x3 (ix1 n) = orient (row4 x3 n) 0 1 := by
  rw [val_main_v65_apply, val_main_v64_apply, val_main_v63_apply, val_main_v61_apply, val_main_v62_apply, col0_at, col1_at, col2_at, col3_at]
  rfl

/-- Entry (0, 2) of the orientation matrix, as a vector over the Gaussians. -/
theorem e02_at (x3 : (⟨S2000000x4, .f32⟩ : BufTy).Contents (Elt Ideal)) (n : Fin 2000000) :
    val_main_v70 (F := Ideal) x3 (ix1 n) = orient (row4 x3 n) 0 2 := by
  rw [val_main_v70_apply, val_main_v69_apply, val_main_v68_apply, val_main_v66_apply, val_main_v67_apply, col0_at, col1_at, col2_at, col3_at]
  rfl

/-- Entry (1, 0) of the orientation matrix, as a vector over the Gaussians. -/
theorem e10_at (x3 : (⟨S2000000x4, .f32⟩ : BufTy).Contents (Elt Ideal)) (n : Fin 2000000) :
    val_main_v75 (F := Ideal) x3 (ix1 n) = orient (row4 x3 n) 1 0 := by
  rw [val_main_v75_apply, val_main_v74_apply, val_main_v73_apply, val_main_v71_apply, val_main_v72_apply, col0_at, col1_at, col2_at, col3_at]
  rfl

/-- Entry (1, 1) of the orientation matrix, as a vector over the Gaussians. -/
theorem e11_at (x3 : (⟨S2000000x4, .f32⟩ : BufTy).Contents (Elt Ideal)) (n : Fin 2000000) :
    val_main_v82 (F := Ideal) x3 (ix1 n) = orient (row4 x3 n) 1 1 := by
  rw [val_main_v82_apply, val_main_v81_apply, val_main_v80_apply, val_main_v79_apply, val_main_v78_apply, val_main_v76_apply, val_main_v77_apply, col1_at, col3_at]
  rfl

/-- Entry (1, 2) of the orientation matrix, as a vector over the Gaussians. -/
theorem e12_at (x3 : (⟨S2000000x4, .f32⟩ : BufTy).Contents (Elt Ideal)) (n : Fin 2000000) :
    val_main_v87 (F := Ideal) x3 (ix1 n) = orient (row4 x3 n) 1 2 := by
  rw [val_main_v87_apply, val_main_v86_apply, val_main_v85_apply, val_main_v83_apply, val_main_v84_apply, col0_at, col1_at, col2_at, col3_at]
  rfl

/-- Entry (2, 0) of the orientation matrix, as a vector over the Gaussians. -/
theorem e20_at (x3 : (⟨S2000000x4, .f32⟩ : BufTy).Contents (Elt Ideal)) (n : Fin 2000000) :
    val_main_v92 (F := Ideal) x3 (ix1 n) = orient (row4 x3 n) 2 0 := by
  rw [val_main_v92_apply, val_main_v91_apply, val_main_v90_apply, val_main_v88_apply, val_main_v89_apply, col0_at, col1_at, col2_at, col3_at]
  rfl

/-- Entry (2, 1) of the orientation matrix, as a vector over the Gaussians. -/
theorem e21_at (x3 : (⟨S2000000x4, .f32⟩ : BufTy).Contents (Elt Ideal)) (n : Fin 2000000) :
    val_main_v97 (F := Ideal) x3 (ix1 n) = orient (row4 x3 n) 2 1 := by
  rw [val_main_v97_apply, val_main_v96_apply, val_main_v95_apply, val_main_v93_apply, val_main_v94_apply, col0_at, col1_at, col2_at, col3_at]
  rfl

/-- Entry (2, 2) of the orientation matrix, as a vector over the Gaussians. -/
theorem e22_at (x3 : (⟨S2000000x4, .f32⟩ : BufTy).Contents (Elt Ideal)) (n : Fin 2000000) :
    val_main_v104 (F := Ideal) x3 (ix1 n) = orient (row4 x3 n) 2 2 := by
  rw [val_main_v104_apply, val_main_v103_apply, val_main_v102_apply, val_main_v101_apply, val_main_v100_apply, val_main_v98_apply, val_main_v99_apply, col1_at, col2_at]
  rfl

/-! ## The orientation matrix -/

/-- The reshape's index map: entry `(n, j, m)` of the `[2000000, 3, 3]` array is entry `(n, 3 j + m)` of the
    `[2000000, 9]` one. -/
theorem idx115 (n : Fin 2000000) (j m : Fin 3) :
    idx_main_v115 (ix3 n j m) = ix2 n ⟨3 * j.val + m.val, by have := j.isLt; have := m.isLt; omega⟩ :=
  funext fun a => Fin.ext (by
    have := j.isLt; have := m.isLt
    match a with
    | ⟨0, _⟩ => show ((n.val * 3 + j.val) * 3 + m.val) / 9 = n.val; omega
    | ⟨1, _⟩ => show ((n.val * 3 + j.val) * 3 + m.val) % 9 = 3 * j.val + m.val; omega)

/-- Column 0 of the stacked `[2000000, 9]` array is entry (0, 0) of the orientation matrix. -/
theorem piece0_at (x3 : (⟨S2000000x4, .f32⟩ : BufTy).Contents (Elt Ideal)) (n : Fin 2000000) :
    val_main_v114 (F := Ideal) x3 (ix2 n ⟨0, by omega⟩) = orient (row4 x3 n) 0 0 := by
  have h : val_main_v114 (F := Ideal) x3 (ix2 n ⟨0, by omega⟩) = val_main_v105 (F := Ideal) x3 (ix2 n 0) := by
    unfold val_main_v114
    exact concatenate_apply_piece (1 : Fin S2000000x9.rank) _ _ (ix2 n ⟨0, by omega⟩) 0 (by show 0 < 9; omega) S2000000x1
      (val_main_v105 (F := Ideal) x3) rfl rfl 0 (by rfl) (ix2 n 0)
      (fun b => match b with | ⟨0, _⟩ => fun _ => rfl | ⟨1, _⟩ => fun hb => absurd rfl hb) rfl
  rw [h, val_main_v105_apply]
  have e : idx_main_v105 (ix2 n 0) = ix1 n := funext fun a => Fin.ext (by match a with | ⟨0, _⟩ => rfl)
  rw [e]
  exact e00_at x3 n

/-- Column 1 of the stacked `[2000000, 9]` array is entry (0, 1) of the orientation matrix. -/
theorem piece1_at (x3 : (⟨S2000000x4, .f32⟩ : BufTy).Contents (Elt Ideal)) (n : Fin 2000000) :
    val_main_v114 (F := Ideal) x3 (ix2 n ⟨1, by omega⟩) = orient (row4 x3 n) 0 1 := by
  have h : val_main_v114 (F := Ideal) x3 (ix2 n ⟨1, by omega⟩) = val_main_v106 (F := Ideal) x3 (ix2 n 0) := by
    unfold val_main_v114
    exact concatenate_apply_piece (1 : Fin S2000000x9.rank) _ _ (ix2 n ⟨1, by omega⟩) 1 (by show 1 < 9; omega) S2000000x1
      (val_main_v106 (F := Ideal) x3) rfl rfl 1 (by rfl) (ix2 n 0)
      (fun b => match b with | ⟨0, _⟩ => fun _ => rfl | ⟨1, _⟩ => fun hb => absurd rfl hb) rfl
  rw [h, val_main_v106_apply]
  have e : idx_main_v106 (ix2 n 0) = ix1 n := funext fun a => Fin.ext (by match a with | ⟨0, _⟩ => rfl)
  rw [e]
  exact e01_at x3 n

/-- Column 2 of the stacked `[2000000, 9]` array is entry (0, 2) of the orientation matrix. -/
theorem piece2_at (x3 : (⟨S2000000x4, .f32⟩ : BufTy).Contents (Elt Ideal)) (n : Fin 2000000) :
    val_main_v114 (F := Ideal) x3 (ix2 n ⟨2, by omega⟩) = orient (row4 x3 n) 0 2 := by
  have h : val_main_v114 (F := Ideal) x3 (ix2 n ⟨2, by omega⟩) = val_main_v107 (F := Ideal) x3 (ix2 n 0) := by
    unfold val_main_v114
    exact concatenate_apply_piece (1 : Fin S2000000x9.rank) _ _ (ix2 n ⟨2, by omega⟩) 2 (by show 2 < 9; omega) S2000000x1
      (val_main_v107 (F := Ideal) x3) rfl rfl 2 (by rfl) (ix2 n 0)
      (fun b => match b with | ⟨0, _⟩ => fun _ => rfl | ⟨1, _⟩ => fun hb => absurd rfl hb) rfl
  rw [h, val_main_v107_apply]
  have e : idx_main_v107 (ix2 n 0) = ix1 n := funext fun a => Fin.ext (by match a with | ⟨0, _⟩ => rfl)
  rw [e]
  exact e02_at x3 n

/-- Column 3 of the stacked `[2000000, 9]` array is entry (1, 0) of the orientation matrix. -/
theorem piece3_at (x3 : (⟨S2000000x4, .f32⟩ : BufTy).Contents (Elt Ideal)) (n : Fin 2000000) :
    val_main_v114 (F := Ideal) x3 (ix2 n ⟨3, by omega⟩) = orient (row4 x3 n) 1 0 := by
  have h : val_main_v114 (F := Ideal) x3 (ix2 n ⟨3, by omega⟩) = val_main_v108 (F := Ideal) x3 (ix2 n 0) := by
    unfold val_main_v114
    exact concatenate_apply_piece (1 : Fin S2000000x9.rank) _ _ (ix2 n ⟨3, by omega⟩) 3 (by show 3 < 9; omega) S2000000x1
      (val_main_v108 (F := Ideal) x3) rfl rfl 3 (by rfl) (ix2 n 0)
      (fun b => match b with | ⟨0, _⟩ => fun _ => rfl | ⟨1, _⟩ => fun hb => absurd rfl hb) rfl
  rw [h, val_main_v108_apply]
  have e : idx_main_v108 (ix2 n 0) = ix1 n := funext fun a => Fin.ext (by match a with | ⟨0, _⟩ => rfl)
  rw [e]
  exact e10_at x3 n

/-- Column 4 of the stacked `[2000000, 9]` array is entry (1, 1) of the orientation matrix. -/
theorem piece4_at (x3 : (⟨S2000000x4, .f32⟩ : BufTy).Contents (Elt Ideal)) (n : Fin 2000000) :
    val_main_v114 (F := Ideal) x3 (ix2 n ⟨4, by omega⟩) = orient (row4 x3 n) 1 1 := by
  have h : val_main_v114 (F := Ideal) x3 (ix2 n ⟨4, by omega⟩) = val_main_v109 (F := Ideal) x3 (ix2 n 0) := by
    unfold val_main_v114
    exact concatenate_apply_piece (1 : Fin S2000000x9.rank) _ _ (ix2 n ⟨4, by omega⟩) 4 (by show 4 < 9; omega) S2000000x1
      (val_main_v109 (F := Ideal) x3) rfl rfl 4 (by rfl) (ix2 n 0)
      (fun b => match b with | ⟨0, _⟩ => fun _ => rfl | ⟨1, _⟩ => fun hb => absurd rfl hb) rfl
  rw [h, val_main_v109_apply]
  have e : idx_main_v109 (ix2 n 0) = ix1 n := funext fun a => Fin.ext (by match a with | ⟨0, _⟩ => rfl)
  rw [e]
  exact e11_at x3 n

/-- Column 5 of the stacked `[2000000, 9]` array is entry (1, 2) of the orientation matrix. -/
theorem piece5_at (x3 : (⟨S2000000x4, .f32⟩ : BufTy).Contents (Elt Ideal)) (n : Fin 2000000) :
    val_main_v114 (F := Ideal) x3 (ix2 n ⟨5, by omega⟩) = orient (row4 x3 n) 1 2 := by
  have h : val_main_v114 (F := Ideal) x3 (ix2 n ⟨5, by omega⟩) = val_main_v110 (F := Ideal) x3 (ix2 n 0) := by
    unfold val_main_v114
    exact concatenate_apply_piece (1 : Fin S2000000x9.rank) _ _ (ix2 n ⟨5, by omega⟩) 5 (by show 5 < 9; omega) S2000000x1
      (val_main_v110 (F := Ideal) x3) rfl rfl 5 (by rfl) (ix2 n 0)
      (fun b => match b with | ⟨0, _⟩ => fun _ => rfl | ⟨1, _⟩ => fun hb => absurd rfl hb) rfl
  rw [h, val_main_v110_apply]
  have e : idx_main_v110 (ix2 n 0) = ix1 n := funext fun a => Fin.ext (by match a with | ⟨0, _⟩ => rfl)
  rw [e]
  exact e12_at x3 n

/-- Column 6 of the stacked `[2000000, 9]` array is entry (2, 0) of the orientation matrix. -/
theorem piece6_at (x3 : (⟨S2000000x4, .f32⟩ : BufTy).Contents (Elt Ideal)) (n : Fin 2000000) :
    val_main_v114 (F := Ideal) x3 (ix2 n ⟨6, by omega⟩) = orient (row4 x3 n) 2 0 := by
  have h : val_main_v114 (F := Ideal) x3 (ix2 n ⟨6, by omega⟩) = val_main_v111 (F := Ideal) x3 (ix2 n 0) := by
    unfold val_main_v114
    exact concatenate_apply_piece (1 : Fin S2000000x9.rank) _ _ (ix2 n ⟨6, by omega⟩) 6 (by show 6 < 9; omega) S2000000x1
      (val_main_v111 (F := Ideal) x3) rfl rfl 6 (by rfl) (ix2 n 0)
      (fun b => match b with | ⟨0, _⟩ => fun _ => rfl | ⟨1, _⟩ => fun hb => absurd rfl hb) rfl
  rw [h, val_main_v111_apply]
  have e : idx_main_v111 (ix2 n 0) = ix1 n := funext fun a => Fin.ext (by match a with | ⟨0, _⟩ => rfl)
  rw [e]
  exact e20_at x3 n

/-- Column 7 of the stacked `[2000000, 9]` array is entry (2, 1) of the orientation matrix. -/
theorem piece7_at (x3 : (⟨S2000000x4, .f32⟩ : BufTy).Contents (Elt Ideal)) (n : Fin 2000000) :
    val_main_v114 (F := Ideal) x3 (ix2 n ⟨7, by omega⟩) = orient (row4 x3 n) 2 1 := by
  have h : val_main_v114 (F := Ideal) x3 (ix2 n ⟨7, by omega⟩) = val_main_v112 (F := Ideal) x3 (ix2 n 0) := by
    unfold val_main_v114
    exact concatenate_apply_piece (1 : Fin S2000000x9.rank) _ _ (ix2 n ⟨7, by omega⟩) 7 (by show 7 < 9; omega) S2000000x1
      (val_main_v112 (F := Ideal) x3) rfl rfl 7 (by rfl) (ix2 n 0)
      (fun b => match b with | ⟨0, _⟩ => fun _ => rfl | ⟨1, _⟩ => fun hb => absurd rfl hb) rfl
  rw [h, val_main_v112_apply]
  have e : idx_main_v112 (ix2 n 0) = ix1 n := funext fun a => Fin.ext (by match a with | ⟨0, _⟩ => rfl)
  rw [e]
  exact e21_at x3 n

/-- Column 8 of the stacked `[2000000, 9]` array is entry (2, 2) of the orientation matrix. -/
theorem piece8_at (x3 : (⟨S2000000x4, .f32⟩ : BufTy).Contents (Elt Ideal)) (n : Fin 2000000) :
    val_main_v114 (F := Ideal) x3 (ix2 n ⟨8, by omega⟩) = orient (row4 x3 n) 2 2 := by
  have h : val_main_v114 (F := Ideal) x3 (ix2 n ⟨8, by omega⟩) = val_main_v113 (F := Ideal) x3 (ix2 n 0) := by
    unfold val_main_v114
    exact concatenate_apply_piece (1 : Fin S2000000x9.rank) _ _ (ix2 n ⟨8, by omega⟩) 8 (by show 8 < 9; omega) S2000000x1
      (val_main_v113 (F := Ideal) x3) rfl rfl 8 (by rfl) (ix2 n 0)
      (fun b => match b with | ⟨0, _⟩ => fun _ => rfl | ⟨1, _⟩ => fun hb => absurd rfl hb) rfl
  rw [h, val_main_v113_apply]
  have e : idx_main_v113 (ix2 n 0) = ix1 n := funext fun a => Fin.ext (by match a with | ⟨0, _⟩ => rfl)
  rw [e]
  exact e22_at x3 n

/-- The stacked and reshaped array is the orientation matrix of each Gaussian. -/
theorem orient_at (x3 : (⟨S2000000x4, .f32⟩ : BufTy).Contents (Elt Ideal)) (n : Fin 2000000) (j m : Fin 3) :
    val_main_v115 (F := Ideal) x3 (ix3 n j m) = orient (row4 x3 n) j m := by
  rw [val_main_v115_apply, idx115]
  match j, m with
  | ⟨0, _⟩, ⟨0, _⟩ => exact piece0_at x3 n
  | ⟨0, _⟩, ⟨1, _⟩ => exact piece1_at x3 n
  | ⟨0, _⟩, ⟨2, _⟩ => exact piece2_at x3 n
  | ⟨1, _⟩, ⟨0, _⟩ => exact piece3_at x3 n
  | ⟨1, _⟩, ⟨1, _⟩ => exact piece4_at x3 n
  | ⟨1, _⟩, ⟨2, _⟩ => exact piece5_at x3 n
  | ⟨2, _⟩, ⟨0, _⟩ => exact piece6_at x3 n
  | ⟨2, _⟩, ⟨1, _⟩ => exact piece7_at x3 n
  | ⟨2, _⟩, ⟨2, _⟩ => exact piece8_at x3 n

/-! ## Scaling the columns, and the 3-D covariance -/

/-- `R S`: entry `(j, m)` of the orientation times `|s m| + ε`, the scale vector being repeated along the middle axis. -/
theorem rs_at (x3 : (⟨S2000000x4, .f32⟩ : BufTy).Contents (Elt Ideal)) (x4 : (⟨S2000000x3, .f32⟩ : BufTy).Contents (Elt Ideal)) (n : Fin 2000000) (j m : Fin 3) :
    val_main_v121 (F := Ideal) x3 x4 (ix3 n j m) = rs (row4 x3 n) (row3 x4 n) j m := by
  rw [val_main_v121_apply, orient_at, val_main_v120_apply, val_main_v119_apply, val_main_v118_apply,
    val_main_v117_apply, val_main_v116_apply]
  have e : idx_main_v119 (idx_main_v120 (ix3 n j m)) = ix2 n m :=
    funext fun a => Fin.ext (by match a with | ⟨0, _⟩ => rfl | ⟨1, _⟩ => rfl)
  rw [e]
  rfl

/-- `(R S)(R S)ᵀ`: the contraction of `R S` with itself over the last axis, Gaussian by Gaussian. -/
theorem cov3_at (x3 : (⟨S2000000x4, .f32⟩ : BufTy).Contents (Elt Ideal)) (x4 : (⟨S2000000x3, .f32⟩ : BufTy).Contents (Elt Ideal)) (n : Fin 2000000) (j k : Fin 3) :
    val_main_v122 (F := Ideal) x3 x4 (ix3 n j k) = cov3 (row4 x3 n) (row3 x4 n) j k := by
  rw [val_main_v122_apply]
  refine Finset.sum_congr rfl fun m _ => ?_
  have el : lidx_main_v122 (ix3 n j k) m = ix3 n j m :=
    funext fun a => Fin.ext (by match a with | ⟨0, _⟩ => rfl | ⟨1, _⟩ => rfl | ⟨2, _⟩ => rfl)
  have er : ridx_main_v122 (ix3 n j k) m = ix3 n k m :=
    funext fun a => Fin.ext (by match a with | ⟨0, _⟩ => rfl | ⟨1, _⟩ => rfl | ⟨2, _⟩ => rfl)
  rw [el, er, rs_at, rs_at]

end Cert.Splat.RefOrient
-- ==== Proof.RefJac.lean ====
/-
  The reference program's projection Jacobian and its product with the camera rotation, one Gaussian at a time.

  With `v` the camera coordinates of Gaussian `n`, `z = v 2` and `l = |v|`, the nine vectors the program stacks are
  `1/z, 0, (-x)/(z z), 0, 1/z, (-y)/(z z), x/l, y/l, z/l`: the entries of the Jacobian of `v ↦ (x/z, y/z, |v|)`.
  The stacked and reshaped array is that Jacobian, and its contraction with the rotation over the last axis is `J W`.
-/
import proofs.«115822_j88313117540420_2_alg».proof.Proof.Spec
import proofs.«115822_j88313117540420_2_alg».proof.Proof.Gen.ReferenceIdeal.Read
import proofs.«115822_j88313117540420_2_alg».proof.Proof.RefCam

noncomputable section

namespace Cert.Splat.RefJac

open Idealize.ShloMosaic Idealize.ShloMosaic.ValueIdx Cert.ReferenceIdeal Cert.ReferenceIdeal.Read Cert.Splat

/-! ## The nine entries of the Jacobian -/

/-- Entry (0, 0) of the Jacobian, as a vector over the Gaussians. -/
theorem j00_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v20 (F := Ideal) x0 x5 x6 (ix1 n) = jac (camOf x0 x5 x6 n) 0 0 := by
  rw [val_main_v20_apply, val_main_v19_apply, RefCam.z_at]
  rfl

/-- Entry (0, 1) of the Jacobian, as a vector over the Gaussians. -/
theorem j01_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v18 (F := Ideal) (ix1 n) = jac (camOf x0 x5 x6 n) 0 1 := by
  rw [val_main_v18_apply]
  exact Ideal.ofBits_zero_f32

/-- Entry (0, 2) of the Jacobian, as a vector over the Gaussians. -/
theorem j02_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v23 (F := Ideal) x0 x5 x6 (ix1 n) = jac (camOf x0 x5 x6 n) 0 2 := by
  rw [val_main_v23_apply, val_main_v21_apply, val_main_v22_apply, RefCam.x_at, RefCam.z_at]
  rfl

/-- Entry (1, 0) of the Jacobian, as a vector over the Gaussians. -/
theorem j10_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v18 (F := Ideal) (ix1 n) = jac (camOf x0 x5 x6 n) 1 0 := by
  rw [val_main_v18_apply]
  exact Ideal.ofBits_zero_f32

/-- Entry (1, 1) of the Jacobian, as a vector over the Gaussians. -/
theorem j11_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v25 (F := Ideal) x0 x5 x6 (ix1 n) = jac (camOf x0 x5 x6 n) 1 1 := by
  rw [val_main_v25_apply, val_main_v24_apply, RefCam.z_at]
  rfl

/-- Entry (1, 2) of the Jacobian, as a vector over the Gaussians. -/
theorem j12_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v28 (F := Ideal) x0 x5 x6 (ix1 n) = jac (camOf x0 x5 x6 n) 1 2 := by
  rw [val_main_v28_apply, val_main_v26_apply, val_main_v27_apply, RefCam.y_at, RefCam.z_at]
  rfl

/-- Entry (2, 0) of the Jacobian, as a vector over the Gaussians. -/
theorem j20_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v29 (F := Ideal) x0 x5 x6 (ix1 n) = jac (camOf x0 x5 x6 n) 2 0 := by
  rw [val_main_v29_apply, RefCam.x_at, RefCam.dist_at]
  rfl

/-- Entry (2, 1) of the Jacobian, as a vector over the Gaussians. -/
theorem j21_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v30 (F := Ideal) x0 x5 x6 (ix1 n) = jac (camOf x0 x5 x6 n) 2 1 := by
  rw [val_main_v30_apply, RefCam.y_at, RefCam.dist_at]
  rfl

/-- Entry (2, 2) of the Jacobian, as a vector over the Gaussians. -/
theorem j22_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v31 (F := Ideal) x0 x5 x6 (ix1 n) = jac (camOf x0 x5 x6 n) 2 2 := by
  rw [val_main_v31_apply, RefCam.z_at, RefCam.dist_at]
  rfl

/-! ## The Jacobian -/

/-- The reshape's index map: entry `(n, i, j)` of the `[2000000, 3, 3]` array is entry `(n, 3 i + j)` of the
    `[2000000, 9]` one. -/
theorem idx42 (n : Fin 2000000) (i j : Fin 3) :
    idx_main_v42 (ix3 n i j) = ix2 n ⟨3 * i.val + j.val, by have := i.isLt; have := j.isLt; omega⟩ :=
  funext fun a => Fin.ext (by
    have := i.isLt; have := j.isLt
    match a with
    | ⟨0, _⟩ => show ((n.val * 3 + i.val) * 3 + j.val) / 9 = n.val; omega
    | ⟨1, _⟩ => show ((n.val * 3 + i.val) * 3 + j.val) % 9 = 3 * i.val + j.val; omega)

/-- Column 0 of the stacked `[2000000, 9]` array is entry (0, 0) of the Jacobian. -/
theorem piece0_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨0, by omega⟩) = jac (camOf x0 x5 x6 n) 0 0 := by
  have h : val_main_v41 (F := Ideal) x0 x5 x6 (ix2 n ⟨0, by omega⟩) = val_main_v32 (F := Ideal) x0 x5 x6 (ix2 n 0) := by
    unfold val_main_v41
    exact concatenate_apply_piece (1 : Fin S2000000x9.rank) _ _ (ix2 n ⟨0, by omega⟩) 0 (by show 0 < 9; omega) S2000000x1
      (val_main_v32 (F := Ideal) x0 x5 x6) rfl rfl 0 (by rfl) (ix2 n 0)
      (fun b => match b with | ⟨0, _⟩ => fun _ => rfl | ⟨1, _⟩ => fun hb => absurd rfl hb) rfl
  rw [h, val_main_v32_apply]
  have e : idx_main_v32 (ix2 n 0) = ix1 n := funext fun a => Fin.ext (by match a with | ⟨0, _⟩ => rfl)
  rw [e]
  exact j00_at x0 x5 x6 n

/-- Column 1 of the stacked `[2000000, 9]` array is entry (0, 1) of the Jacobian. -/
theorem piece1_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨1, by omega⟩) = jac (camOf x0 x5 x6 n) 0 1 := by
  have h : val_main_v41 (F := Ideal) x0 x5 x6 (ix2 n ⟨1, by omega⟩) = val_main_v33 (F := Ideal) (ix2 n 0) := by
    unfold val_main_v41
    exact concatenate_apply_piece (1 : Fin S2000000x9.rank) _ _ (ix2 n ⟨1, by omega⟩) 1 (by show 1 < 9; omega) S2000000x1
      (val_main_v33 (F := Ideal)) rfl rfl 1 (by rfl) (ix2 n 0)
      (fun b => match b with | ⟨0, _⟩ => fun _ => rfl | ⟨1, _⟩ => fun hb => absurd rfl hb) rfl
  rw [h, val_main_v33_apply]
  have e : idx_main_v33 (ix2 n 0) = ix1 n := funext fun a => Fin.ext (by match a with | ⟨0, _⟩ => rfl)
  rw [e]
  exact j01_at x0 x5 x6 n

/-- Column 2 of the stacked `[2000000, 9]` array is entry (0, 2) of the Jacobian. -/
theorem piece2_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨2, by omega⟩) = jac (camOf x0 x5 x6 n) 0 2 := by
  have h : val_main_v41 (F := Ideal) x0 x5 x6 (ix2 n ⟨2, by omega⟩) = val_main_v34 (F := Ideal) x0 x5 x6 (ix2 n 0) := by
    unfold val_main_v41
    exact concatenate_apply_piece (1 : Fin S2000000x9.rank) _ _ (ix2 n ⟨2, by omega⟩) 2 (by show 2 < 9; omega) S2000000x1
      (val_main_v34 (F := Ideal) x0 x5 x6) rfl rfl 2 (by rfl) (ix2 n 0)
      (fun b => match b with | ⟨0, _⟩ => fun _ => rfl | ⟨1, _⟩ => fun hb => absurd rfl hb) rfl
  rw [h, val_main_v34_apply]
  have e : idx_main_v34 (ix2 n 0) = ix1 n := funext fun a => Fin.ext (by match a with | ⟨0, _⟩ => rfl)
  rw [e]
  exact j02_at x0 x5 x6 n

/-- Column 3 of the stacked `[2000000, 9]` array is entry (1, 0) of the Jacobian. -/
theorem piece3_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨3, by omega⟩) = jac (camOf x0 x5 x6 n) 1 0 := by
  have h : val_main_v41 (F := Ideal) x0 x5 x6 (ix2 n ⟨3, by omega⟩) = val_main_v35 (F := Ideal) (ix2 n 0) := by
    unfold val_main_v41
    exact concatenate_apply_piece (1 : Fin S2000000x9.rank) _ _ (ix2 n ⟨3, by omega⟩) 3 (by show 3 < 9; omega) S2000000x1
      (val_main_v35 (F := Ideal)) rfl rfl 3 (by rfl) (ix2 n 0)
      (fun b => match b with | ⟨0, _⟩ => fun _ => rfl | ⟨1, _⟩ => fun hb => absurd rfl hb) rfl
  rw [h, val_main_v35_apply]
  have e : idx_main_v35 (ix2 n 0) = ix1 n := funext fun a => Fin.ext (by match a with | ⟨0, _⟩ => rfl)
  rw [e]
  exact j10_at x0 x5 x6 n

/-- Column 4 of the stacked `[2000000, 9]` array is entry (1, 1) of the Jacobian. -/
theorem piece4_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨4, by omega⟩) = jac (camOf x0 x5 x6 n) 1 1 := by
  have h : val_main_v41 (F := Ideal) x0 x5 x6 (ix2 n ⟨4, by omega⟩) = val_main_v36 (F := Ideal) x0 x5 x6 (ix2 n 0) := by
    unfold val_main_v41
    exact concatenate_apply_piece (1 : Fin S2000000x9.rank) _ _ (ix2 n ⟨4, by omega⟩) 4 (by show 4 < 9; omega) S2000000x1
      (val_main_v36 (F := Ideal) x0 x5 x6) rfl rfl 4 (by rfl) (ix2 n 0)
      (fun b => match b with | ⟨0, _⟩ => fun _ => rfl | ⟨1, _⟩ => fun hb => absurd rfl hb) rfl
  rw [h, val_main_v36_apply]
  have e : idx_main_v36 (ix2 n 0) = ix1 n := funext fun a => Fin.ext (by match a with | ⟨0, _⟩ => rfl)
  rw [e]
  exact j11_at x0 x5 x6 n

/-- Column 5 of the stacked `[2000000, 9]` array is entry (1, 2) of the Jacobian. -/
theorem piece5_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨5, by omega⟩) = jac (camOf x0 x5 x6 n) 1 2 := by
  have h : val_main_v41 (F := Ideal) x0 x5 x6 (ix2 n ⟨5, by omega⟩) = val_main_v37 (F := Ideal) x0 x5 x6 (ix2 n 0) := by
    unfold val_main_v41
    exact concatenate_apply_piece (1 : Fin S2000000x9.rank) _ _ (ix2 n ⟨5, by omega⟩) 5 (by show 5 < 9; omega) S2000000x1
      (val_main_v37 (F := Ideal) x0 x5 x6) rfl rfl 5 (by rfl) (ix2 n 0)
      (fun b => match b with | ⟨0, _⟩ => fun _ => rfl | ⟨1, _⟩ => fun hb => absurd rfl hb) rfl
  rw [h, val_main_v37_apply]
  have e : idx_main_v37 (ix2 n 0) = ix1 n := funext fun a => Fin.ext (by match a with | ⟨0, _⟩ => rfl)
  rw [e]
  exact j12_at x0 x5 x6 n

/-- Column 6 of the stacked `[2000000, 9]` array is entry (2, 0) of the Jacobian. -/
theorem piece6_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨6, by omega⟩) = jac (camOf x0 x5 x6 n) 2 0 := by
  have h : val_main_v41 (F := Ideal) x0 x5 x6 (ix2 n ⟨6, by omega⟩) = val_main_v38 (F := Ideal) x0 x5 x6 (ix2 n 0) := by
    unfold val_main_v41
    exact concatenate_apply_piece (1 : Fin S2000000x9.rank) _ _ (ix2 n ⟨6, by omega⟩) 6 (by show 6 < 9; omega) S2000000x1
      (val_main_v38 (F := Ideal) x0 x5 x6) rfl rfl 6 (by rfl) (ix2 n 0)
      (fun b => match b with | ⟨0, _⟩ => fun _ => rfl | ⟨1, _⟩ => fun hb => absurd rfl hb) rfl
  rw [h, val_main_v38_apply]
  have e : idx_main_v38 (ix2 n 0) = ix1 n := funext fun a => Fin.ext (by match a with | ⟨0, _⟩ => rfl)
  rw [e]
  exact j20_at x0 x5 x6 n

/-- Column 7 of the stacked `[2000000, 9]` array is entry (2, 1) of the Jacobian. -/
theorem piece7_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨7, by omega⟩) = jac (camOf x0 x5 x6 n) 2 1 := by
  have h : val_main_v41 (F := Ideal) x0 x5 x6 (ix2 n ⟨7, by omega⟩) = val_main_v39 (F := Ideal) x0 x5 x6 (ix2 n 0) := by
    unfold val_main_v41
    exact concatenate_apply_piece (1 : Fin S2000000x9.rank) _ _ (ix2 n ⟨7, by omega⟩) 7 (by show 7 < 9; omega) S2000000x1
      (val_main_v39 (F := Ideal) x0 x5 x6) rfl rfl 7 (by rfl) (ix2 n 0)
      (fun b => match b with | ⟨0, _⟩ => fun _ => rfl | ⟨1, _⟩ => fun hb => absurd rfl hb) rfl
  rw [h, val_main_v39_apply]
  have e : idx_main_v39 (ix2 n 0) = ix1 n := funext fun a => Fin.ext (by match a with | ⟨0, _⟩ => rfl)
  rw [e]
  exact j21_at x0 x5 x6 n

/-- Column 8 of the stacked `[2000000, 9]` array is entry (2, 2) of the Jacobian. -/
theorem piece8_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) :
    val_main_v41 (F := Ideal) x0 x5 x6 (ix2 n ⟨8, by omega⟩) = jac (camOf x0 x5 x6 n) 2 2 := by
  have h : val_main_v41 (F := Ideal) x0 x5 x6 (ix2 n ⟨8, by omega⟩) = val_main_v40 (F := Ideal) x0 x5 x6 (ix2 n 0) := by
    unfold val_main_v41
    exact concatenate_apply_piece (1 : Fin S2000000x9.rank) _ _ (ix2 n ⟨8, by omega⟩) 8 (by show 8 < 9; omega) S2000000x1
      (val_main_v40 (F := Ideal) x0 x5 x6) rfl rfl 8 (by rfl) (ix2 n 0)
      (fun b => match b with | ⟨0, _⟩ => fun _ => rfl | ⟨1, _⟩ => fun hb => absurd rfl hb) rfl
  rw [h, val_main_v40_apply]
  have e : idx_main_v40 (ix2 n 0) = ix1 n := funext fun a => Fin.ext (by match a with | ⟨0, _⟩ => rfl)
  rw [e]
  exact j22_at x0 x5 x6 n

/-- The stacked and reshaped array is the Jacobian at each Gaussian's camera coordinates. -/
theorem jac_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) (i j : Fin 3) :
    val_main_v42 (F := Ideal) x0 x5 x6 (ix3 n i j) = jac (camOf x0 x5 x6 n) i j := by
  rw [val_main_v42_apply, idx42]
  match i, j with
  | ⟨0, _⟩, ⟨0, _⟩ => exact piece0_at x0 x5 x6 n
  | ⟨0, _⟩, ⟨1, _⟩ => exact piece1_at x0 x5 x6 n
  | ⟨0, _⟩, ⟨2, _⟩ => exact piece2_at x0 x5 x6 n
  | ⟨1, _⟩, ⟨0, _⟩ => exact piece3_at x0 x5 x6 n
  | ⟨1, _⟩, ⟨1, _⟩ => exact piece4_at x0 x5 x6 n
  | ⟨1, _⟩, ⟨2, _⟩ => exact piece5_at x0 x5 x6 n
  | ⟨2, _⟩, ⟨0, _⟩ => exact piece6_at x0 x5 x6 n
  | ⟨2, _⟩, ⟨1, _⟩ => exact piece7_at x0 x5 x6 n
  | ⟨2, _⟩, ⟨2, _⟩ => exact piece8_at x0 x5 x6 n

/-! ## The Jacobian against the rotation -/

/-- `J W`: the contraction of the Jacobian's last axis with the rotation's first. -/
theorem jw_at (x0 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) (i k : Fin 3) :
    val_main_v123 (F := Ideal) x0 x5 x6 (ix3 n i k) = jw (camOf x0 x5 x6 n) (mat x5) i k := by
  rw [val_main_v123_apply]
  refine Finset.sum_congr rfl fun j _ => ?_
  have el : lidx_main_v123 (ix3 n i k) j = ix3 n i j :=
    funext fun a => Fin.ext (by match a with | ⟨0, _⟩ => rfl | ⟨1, _⟩ => rfl | ⟨2, _⟩ => rfl)
  have er : ridx_main_v123 (ix3 n i k) j = ix2 j k :=
    funext fun a => Fin.ext (by match a with | ⟨0, _⟩ => rfl | ⟨1, _⟩ => rfl)
  rw [el, er, jac_at]

end Cert.Splat.RefJac
-- ==== Proof.RefCov.lean ====
/-
  The reference program's image-plane covariance.

  For Gaussian `n` with camera coordinates `v`, 3-D covariance `C` and `J W` the Jacobian against the rotation, the
  program contracts `Σ j, C j k · (J W) i j`, then `Σ k, (that) k i · (J W) l k`, and keeps the top-left 2×2 block.
  This file reads the two batched contractions at an index and concludes that the program's second result is the
  specification's array of image-plane covariances.
-/
import proofs.«115822_j88313117540420_2_alg».proof.Proof.Spec
import proofs.«115822_j88313117540420_2_alg».proof.Proof.Gen.ReferenceIdeal.Read
import proofs.«115822_j88313117540420_2_alg».proof.Proof.RefCam
import proofs.«115822_j88313117540420_2_alg».proof.Proof.RefOrient
import proofs.«115822_j88313117540420_2_alg».proof.Proof.RefJac

noncomputable section

namespace Cert.Splat.RefCov

open Idealize.ShloMosaic Idealize.ShloMosaic.ValueIdx Cert.ReferenceIdeal Cert.ReferenceIdeal.Read Cert.Splat

/-- `C (J W)ᵀ`, entry `(k, i)`: the first contraction, over the first matrix axis of `C` and the last of `J W`. -/
theorem tk_at (x0 : (⟨S2000000x3, .f32⟩ : BufTy).Contents (Elt Ideal)) (x3 : (⟨S2000000x4, .f32⟩ : BufTy).Contents (Elt Ideal))
    (x4 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) (k i : Fin 3) :
    val_main_v124 (F := Ideal) x0 x3 x4 x5 x6 (ix3 n k i)
      = tk (camOf x0 x5 x6 n) (mat x5) (row4 x3 n) (row3 x4 n) k i := by
  rw [val_main_v124_apply]
  refine Finset.sum_congr rfl fun j _ => ?_
  have el : lidx_main_v124 (ix3 n k i) j = ix3 n j k :=
    funext fun a => Fin.ext (by match a with | ⟨0, _⟩ => rfl | ⟨1, _⟩ => rfl | ⟨2, _⟩ => rfl)
  have er : ridx_main_v124 (ix3 n k i) j = ix3 n i j :=
    funext fun a => Fin.ext (by match a with | ⟨0, _⟩ => rfl | ⟨1, _⟩ => rfl | ⟨2, _⟩ => rfl)
  rw [el, er, RefOrient.cov3_at, RefJac.jw_at]

/-- `(J W) C (J W)ᵀ`, entry `(i, l)`: the second contraction. -/
theorem cov2_at (x0 : (⟨S2000000x3, .f32⟩ : BufTy).Contents (Elt Ideal)) (x3 : (⟨S2000000x4, .f32⟩ : BufTy).Contents (Elt Ideal))
    (x4 : (⟨S2000000x3, .f32⟩ : BufTy).Contents (Elt Ideal)) (x5 : (⟨S3x3, .f32⟩ : BufTy).Contents (Elt Ideal))
    (x6 : (⟨S3, .f32⟩ : BufTy).Contents (Elt Ideal)) (n : Fin 2000000) (i l : Fin 3) :
    val_main_v125 (F := Ideal) x0 x3 x4 x5 x6 (ix3 n i l)
      = cov2 (camOf x0 x5 x6 n) (mat x5) (row4 x3 n) (row3 x4 n) i l := by
  rw [val_main_v125_apply]
  refine Finset.sum_congr rfl fun k _ => ?_
  have el : lidx_main_v125 (ix3 n i l) k = ix3 n k i :=
    funext fun a => Fin.ext (by match a with | ⟨0, _⟩ => rfl | ⟨1, _⟩ => rfl | ⟨2, _⟩ => rfl)
  have er : ridx_main_v125 (ix3 n i l) k = ix3 n l k :=
    funext fun a => Fin.ext (by match a with | ⟨0, _⟩ => rfl | ⟨1, _⟩ => rfl | ⟨2, _⟩ => rfl)
  rw [el, er, tk_at, RefJac.jw_at]

/-- The program's second result, the top-left 2×2 block of each `(J W) C (J W)ᵀ`, is the specification's array of
    image-plane covariances. -/
theorem ref_cov (x0 : (⟨S2000000x3, .f32⟩ : BufTy).Contents (Elt Ideal)) (x3 : (⟨S2000000x4, .f32⟩ : BufTy).Contents (Elt Ideal))
    (x4 : (⟨S2000000x3, .f32⟩ : BufTy).Contents (Elt Ideal)) (x5 : (⟨S3x3, .f32⟩ : BufTy).Contents (Elt Ideal))
    (x6 : (⟨S3, .f32⟩ : BufTy).Contents (Elt Ideal)) :
    val_main_v126 (F := Ideal) x0 x3 x4 x5 x6 = G8 x0 x3 x4 x5 x6 := by
  funext idx
  obtain ⟨n, a, b, rfl⟩ : ∃ (n : Fin 2000000) (a b : Fin 2), idx = ix3 n a b := ⟨_, _, _, eq_ix3 idx⟩
  rw [val_main_v126_apply, G8_ix]
  have e : idx_main_v126 (ix3 n a b) = ix3 n (up a) (up b) :=
    funext fun c => Fin.ext (by match c with | ⟨0, _⟩ => rfl | ⟨1, _⟩ => rfl | ⟨2, _⟩ => rfl)
  rw [e, cov2_at]

end Cert.Splat.RefCov
-- ==== Proof.RefSig.lean ====
/-
  The reference program's colours and opacities.

  The reference applies the logistic function to every colour and every opacity, spelt `1 / (1 + exp (-x))` with the
  float literal whose word denotes one. This file reads both result arrays at an index and identifies them with the
  specification's `G9` and `G10`; the only fact used is that the literal is the number one.
-/
import proofs.«115822_j88313117540420_2_alg».proof.Proof.Spec
import proofs.«115822_j88313117540420_2_alg».proof.Proof.Gen.ReferenceIdeal.Read

noncomputable section

namespace Cert.Splat.RefSig

open Cert.ReferenceIdeal Cert.ReferenceIdeal.Gen Cert.ReferenceIdeal.Read Idealize.ShloMosaic Idealize.ShloMosaic.ValueIdx
  Idealize.ShloMosaic.StableHlo

/-- The logistic function, with the literal one written as the extended real it denotes. -/
theorem logistic_one32 (x : EReal) :
    Ideal.div Cert.Splat.one32 (Cert.Splat.one32 + Ideal.exp (-x)) = Ideal.logistic x := by
  rw [Cert.Splat.one32_eq]
  rfl

/-- The reference's third result is the logistic function of every colour. -/
theorem ref_rgb (x1 : (⟨S2000000x3, .f32⟩ : BufTy).Contents (Elt Ideal)) :
    val_main_v132 (F := Ideal) x1 = Cert.Splat.G9 x1 := by
  funext i
  rw [val_main_v132_apply, val_main_v131_apply, val_main_v130_apply, val_main_v129_apply, val_main_v128_apply,
    val_main_v127_apply, val_main_cst_15_apply, val_main_cst_16_apply]
  exact logistic_one32 (x1 i)

/-- The reference's fourth result is the logistic function of every opacity. -/
theorem ref_op (x2 : (⟨S2000000x1, .f32⟩ : BufTy).Contents (Elt Ideal)) :
    val_main_v138 (F := Ideal) x2 = Cert.Splat.G10 x2 := by
  funext i
  rw [val_main_v138_apply, val_main_v137_apply, val_main_v136_apply, val_main_v135_apply, val_main_v134_apply,
    val_main_v133_apply, val_main_cst_17_apply, val_main_cst_18_apply]
  exact logistic_one32 (x2 i)

end Cert.Splat.RefSig

end
-- ==== Proof.PreDomain.lean ====
/-
  The precondition keeps every Gaussian in front of or behind the camera plane, never on it.

  The certificate's precondition is a conjunction: seven finiteness conditions and, last, that the camera depth
  `z = (Σ k, p k · rot 2 k) + tr 2` of every Gaussian differs from zero (a comparison of the depth vector against
  the zero vector, and-ed over all Gaussians). This file extracts that last conjunct: under the precondition the
  specification's `camOf … n 2` is nonzero for every `n`. The depth vector inside the precondition is the same
  chain of operations as the reference program's depth vector, so its entries are already known.
-/
import proofs.«115822_j88313117540420_2_alg».proof.Proof.Spec
import proofs.«115822_j88313117540420_2_alg».proof.Proof.RefCam
import proofs.«115822_j88313117540420_2_alg».proof.Pre_finite_inputs
import proofs.«115822_j88313117540420_2_alg».proof.Defs
import Idealize.ShloMosaic.Lib.ReduceAll
import Idealize.ShloMosaic.Lib.Pipeline.Value
import Idealize.ShloMosaic.Lib.ValueIdx

noncomputable section

namespace Cert.Splat.PreDomain

open Idealize.ShloMosaic Idealize.ShloMosaic.ValueIdx Idealize.ShloMosaic.StableHlo Idealize.SL.Sem

variable [hF : Cert.Pre_finite_inputs.Facts]

/-- The rank-zero shape has exactly one index. -/
instance : Subsingleton Cert.Pre_finite_inputs.S_.Idx := ⟨fun a b => funext fun d => d.elim0⟩

/-- The depth vector as the precondition computes it: rotate, translate, take the third column. -/
def depthVec (a0 : FVec Ideal Cert.Pre_finite_inputs.S2000000x3 .f32) (a5 : FVec Ideal Cert.Pre_finite_inputs.S3x3 .f32)
    (a6 : FVec Ideal Cert.Pre_finite_inputs.S3 .f32) : FVec Ideal Cert.Pre_finite_inputs.S2000000 .f32 :=
  shapeCast Cert.Pre_finite_inputs.S2000000
    (extractStridedSlice Cert.Pre_finite_inputs.S2000000x1 ![0, 2]
      (addf (Host.dotGeneral Cert.Pre_finite_inputs.dot_S2000000x3_S3x3_S2000000x3_1_0_0_1_n_n none a0
          (transpose Cert.Pre_finite_inputs.S3x3 [1, 0] a5 hF.transposes_S3x3_S3x3_1_0))
        (broadcastInDim Cert.Pre_finite_inputs.S2000000x3 ![0, 1] hF.bcast_S1x3_S2000000x3_0_1
          (broadcastInDim Cert.Pre_finite_inputs.S1x3 ![1] hF.bcast_S3_S1x3_1 a6)))
      hF.slices_S2000000x3_S2000000x1_0_2)
    hF.shapeCasts_S2000000x1_S2000000

/-- It is the reference program's depth vector: the same operations on the same arrays. -/
theorem depthVec_eq (a0 : FVec Ideal Cert.Pre_finite_inputs.S2000000x3 .f32) (a5 : FVec Ideal Cert.Pre_finite_inputs.S3x3 .f32)
    (a6 : FVec Ideal Cert.Pre_finite_inputs.S3 .f32) :
    depthVec a0 a5 a6 = Cert.ReferenceIdeal.Read.val_main_v10 (F := Ideal) a0 a5 a6 := rfl

/-- Entry `n` of the depth vector is the depth of Gaussian `n`. -/
theorem depthVec_at (a0 : FVec Ideal Cert.Pre_finite_inputs.S2000000x3 .f32) (a5 : FVec Ideal Cert.Pre_finite_inputs.S3x3 .f32)
    (a6 : FVec Ideal Cert.Pre_finite_inputs.S3 .f32) (n : Fin 2000000) :
    depthVec a0 a5 a6 (ix1 n) = Cert.Splat.camOf a0 a5 a6 n 2 := by
  rw [depthVec_eq]
  exact Cert.Splat.RefCam.z_at a0 a5 a6 n

/-- The last part of the precondition: whatever the earlier conjuncts gave, and-ed with "every depth is nonzero". -/
theorem part2_eq (a0 : FVec Ideal Cert.Pre_finite_inputs.S2000000x3 .f32) (a5 : FVec Ideal Cert.Pre_finite_inputs.S3x3 .f32)
    (a6 : FVec Ideal Cert.Pre_finite_inputs.S3 .f32) (v33 : IVec Cert.Pre_finite_inputs.S_ 1) :
    Cert.Pre_finite_inputs.fn_part2 (F := Ideal) a0 a5 a6 v33
      = andi v33 (Host.reduce IntOp.andi
          (cmpf .une (depthVec a0 a5 a6)
            (broadcastInDim Cert.Pre_finite_inputs.S2000000 ![] hF.bcast_S_S2000000
              (constant (F := Ideal) Cert.Pre_finite_inputs.S_ .f32 0x00000000#32)))
          (constantI Cert.Pre_finite_inputs.S_ 1 1#1) hF.reducesTo_S2000000_S_d0 hF.h_S_) := rfl

/-- The whole precondition ends in that last part, applied to the conjunction of the finiteness conditions. -/
theorem fn_eq (a0 a1 : FVec Ideal Cert.Pre_finite_inputs.S2000000x3 .f32) (a2 : FVec Ideal Cert.Pre_finite_inputs.S2000000x1 .f32)
    (a3 : FVec Ideal Cert.Pre_finite_inputs.S2000000x4 .f32) (a4 : FVec Ideal Cert.Pre_finite_inputs.S2000000x3 .f32)
    (a5 : FVec Ideal Cert.Pre_finite_inputs.S3x3 .f32) (a6 : FVec Ideal Cert.Pre_finite_inputs.S3 .f32) :
    ∃ v33 : IVec Cert.Pre_finite_inputs.S_ 1,
      Cert.Pre_finite_inputs.fn (F := Ideal) a0 a1 a2 a3 a4 a5 a6
        = Cert.Pre_finite_inputs.fn_part2 (F := Ideal) a0 a5 a6 v33 :=
  ⟨_, rfl⟩

/-- The comparison "differs from" of a number with itself answers zero. -/
theorem cmp_une_self (x : EReal) : Ideal.cmp .une x x = 0#1 := by
  simp [Ideal.cmp]

/-- Under the precondition the depth of every Gaussian is nonzero. -/
theorem depth_ne_zero (a0 a1 : FVec Ideal Cert.Pre_finite_inputs.S2000000x3 .f32) (a2 : FVec Ideal Cert.Pre_finite_inputs.S2000000x1 .f32)
    (a3 : FVec Ideal Cert.Pre_finite_inputs.S2000000x4 .f32) (a4 : FVec Ideal Cert.Pre_finite_inputs.S2000000x3 .f32)
    (a5 : FVec Ideal Cert.Pre_finite_inputs.S3x3 .f32) (a6 : FVec Ideal Cert.Pre_finite_inputs.S3 .f32)
    (h : Cert.Pre_finite_inputs.fn (F := Ideal) a0 a1 a2 a3 a4 a5 a6 = fun _ => 1#1) (n : Fin 2000000) :
    Cert.Splat.camOf a0 a5 a6 n 2 ≠ 0 := by
  obtain ⟨v33, e⟩ := fn_eq a0 a1 a2 a3 a4 a5 a6
  rw [e, part2_eq] at h
  have h0 := congrFun h ValueIdx.ix0
  have h1 : Host.reduce IntOp.andi _ _ _ _ ValueIdx.ix0 = 1#1 := (IntOp.andi_eq_one.1 h0).2
  have h2 := Host.reduce_andi_all _ _ _ _ _ h1 (ix1 n)
  have hz : broadcastInDim Cert.Pre_finite_inputs.S2000000 ![] hF.bcast_S_S2000000
      (constant (F := Ideal) Cert.Pre_finite_inputs.S_ .f32 0x00000000#32) (ix1 n) = (0 : EReal) := by
    rw [broadcastInDim_apply _ hF.bcast_S_S2000000 _ (ix1 n) ValueIdx.ix0 (fun a => a.elim0)]
    exact Ideal.ofBits_zero_f32
  have h3 : Ideal.cmp .une (Cert.Splat.camOf a0 a5 a6 n 2) 0 = 1#1 := by
    rw [← depthVec_at a0 a5 a6 n, ← hz]
    exact h2
  intro hc
  rw [hc, cmp_une_self] at h3
  exact absurd h3 (by decide)

/-- The same for the kernel's initial memory: under the certificate's precondition, on every device, the depth of
    every Gaussian computed from the argument arrays is nonzero. -/
theorem depth_ne_zero_of_pre
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 2000000) :
    Cert.Splat.camOf (m ((c.tc : Thread Cert.KernelIdeal.nD Cert.KernelIdeal.τ).loc Cert.KernelIdeal.main_arg0))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) n 2 ≠ 0 :=
  depth_ne_zero _ _ _ _ _ _ _ (h c) n

end Cert.Splat.PreDomain

end
-- ==== Proof.lean ====
/-
  The certificate of the Gaussian-splat projection kernel against its jnp reference, over the extended reals.

  Both programs compute, for each of 2,000,000 Gaussians independently, the image position `(x/z, y/z, |v|)` of its
  camera coordinates `v = rot · p + tran`, the top-left 2×2 block of `(J W) C (J W)ᵀ` — `J` the projection's
  Jacobian at `v`, `W = rot`, `C = (R S)(R S)ᵀ` from the normalised quaternion and `|scale| + ε` —, and the logistic
  function of colour and opacity (Proof/Spec.lean states these as functions of a Gaussian's own rows).

  The kernel differs from the reference only in spelling: it multiplies by `1/z` where the reference divides by `z`,
  writes every 3-term sum and 3×3 product out, drops the Jacobian's two zero entries, and contracts in the same
  order. Dividing by `z` and multiplying by `1/z` are one function exactly where `z ≠ 0`; at `z = 0` the reference's own
  quotient is an infinity or undefined, and the precondition states `z ≠ 0` for every Gaussian. With that, the two
  values agree by laws that hold on all extended reals (Proof/KernelForm.lean); no input's finiteness is used.

  The kernel's side: what the body leaves in an output block, entry by entry (Proof/KernelPayload.lean), the blocks
  of 2000 rows as rows of the arrays (Proof/Blocks.lean), and the 1000 blocks covering each output array
  (Proof/KernelOut.lean, Proof/KernelSig.lean). The reference's side: its generated run read one operation at a time
  (Proof/RefCam.lean, RefPos.lean, RefOrient.lean, RefJac.lean, RefCov.lean, RefSig.lean). The depth condition out
  of the precondition: Proof/PreDomain.lean.
-/
import proofs.«115822_j88313117540420_2_alg».proof.Defs
import proofs.«115822_j88313117540420_2_alg».proof.Proof.Gen.Kernel
import proofs.«115822_j88313117540420_2_alg».proof.Proof.Gen.Kernel.Skeleton
import proofs.«115822_j88313117540420_2_alg».proof.Proof.Gen.Kernel.Launch
import proofs.«115822_j88313117540420_2_alg».proof.Proof.Gen.Kernel.Points
import proofs.«115822_j88313117540420_2_alg».proof.Proof.Gen.Kernel.Frame
import proofs.«115822_j88313117540420_2_alg».proof.Proof.Gen.KernelIdeal
import proofs.«115822_j88313117540420_2_alg».proof.Proof.Gen.KernelIdeal.Skeleton
import proofs.«115822_j88313117540420_2_alg».proof.Proof.Gen.KernelIdeal.Launch
import proofs.«115822_j88313117540420_2_alg».proof.Proof.Gen.KernelIdeal.Points
import proofs.«115822_j88313117540420_2_alg».proof.Proof.Gen.KernelIdeal.Frame
import proofs.«115822_j88313117540420_2_alg».proof.Proof.Gen.ReferenceIdeal
import proofs.«115822_j88313117540420_2_alg».proof.Proof.Gen.KernelIdeal.Value
import proofs.«115822_j88313117540420_2_alg».proof.Proof.Gen.ReferenceIdeal.Run
import proofs.«115822_j88313117540420_2_alg».proof.Proof.Gen.ReferenceIdeal.Read
import proofs.«115822_j88313117540420_2_alg».proof.Proof.Gen.Pre_finite_inputs
import proofs.«115822_j88313117540420_2_alg».proof.Proof.KernelOut
import proofs.«115822_j88313117540420_2_alg».proof.Proof.KernelSig
import proofs.«115822_j88313117540420_2_alg».proof.Proof.RefPos
import proofs.«115822_j88313117540420_2_alg».proof.Proof.RefCov
import proofs.«115822_j88313117540420_2_alg».proof.Proof.RefSig
import proofs.«115822_j88313117540420_2_alg».proof.Proof.PreDomain
import Idealize.ShloMosaic.Adequacy
import Idealize.ShloMosaic.Init

set_option maxRecDepth 16384

noncomputable section

namespace Cert.Proof

open Idealize.ShloMosaic Idealize.ShloMosaic.TcCoe Idealize.SL.Sem Cert.Splat

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with the four result arrays at the specification's functions of the argument arrays: the kernel's
    because its 1000 blocks per output are the blocks of those functions and cover the arrays, given that no
    Gaussian's depth is zero; the reference's because its operations, read at an index, are those functions. -/
theorem algebraic : Cert.algebraic_KernelIdeal_ReferenceIdeal := by
  intro m ρ m' ρ' hpre hagree
  have hD : ∀ (c : Dev Cert.KernelIdeal.nD) (n : Fin 2000000),
      camOf (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) n 2 ≠ 0 :=
    fun c n => Cert.Splat.PreDomain.depth_ne_zero_of_pre m hpre c n
  refine ⟨fun c => G7 (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
    fun c => G8 (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
    fun c => G9 (m ((c.tc : Thread Cert.KernelIdeal.nD Cert.KernelIdeal.τ).loc Cert.KernelIdeal.main_arg1)),
    fun c => G10 (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks m ρ)
    obtain ⟨h7, h8, h9, h10, hargs⟩ := h c
    exact ⟨h7.trans (Cert.Splat.KOut.final7 m c (hD c)), h8.trans (Cert.Splat.KOut.final8 m c (hD c)),
      h9.trans (Cert.Splat.KSig.final9 m c), h10.trans (Cert.Splat.KSig.final10 m c), hargs⟩
  · refine (θ_run Cert.ReferenceIdeal.defs _ _).mono (fun r h c => ?_) (Cert.ReferenceIdeal.Value.run (F := Ideal) m' ρ')
    obtain ⟨h17, h126, h132, h138, hargs⟩ := h c
    obtain ⟨a0, a1, a2, a3, a4, a5, a6⟩ := hagree c
    refine ⟨?_, ?_, ?_, ?_, hargs⟩
    · rw [h17, Cert.ReferenceIdeal.Read.val_main_v17_eq, Cert.Splat.RefPos.ref_pos, a0, a5, a6]
    · rw [h126, Cert.ReferenceIdeal.Read.val_main_v126_eq, Cert.Splat.RefCov.ref_cov, a0, a3, a4, a5, a6]
    · rw [h132, Cert.ReferenceIdeal.Read.val_main_v132_eq, Cert.Splat.RefSig.ref_rgb, a1]
    · rw [h138, Cert.ReferenceIdeal.Read.val_main_v138_eq, Cert.Splat.RefSig.ref_op, a2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
